-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg9 : FVec F S128x47 .f32) (main_arg10 : FVec F S47 .f32) (main_arg11 : FVec F S128x47 .f32) (main_v33 : IVec S_ 1) : IVec S_ 1 :=
  let main_v34 : FVec F S128x47 .f32 := Host.absf main_arg9
  let main_cst_12 : FVec F S_ .f32 := constant S_ .f32 0x7F800000#32
  let main_v35 : FVec F S128x47 .f32 := broadcastInDim S128x47 ![] bcast_S_S128x47 main_cst_12
  let main_v36 : IVec S128x47 1 := cmpf .olt main_v34 main_v35
  let main_c_13 : IVec S_ 1 := constantI S_ 1 1#1
  let main_v37 : IVec S_ 1 := (fun x v => Host.reduce IntOp.andi x v reducesTo_S128x47_S_d0_1 h_S_) main_v36 main_c_13
  let main_v38 : IVec S_ 1 := andi main_v33 main_v37
  let main_v39 : FVec F S47 .f32 := Host.absf main_arg10
  let main_cst_14 : FVec F S_ .f32 := constant S_ .f32 0x7F800000#32
  let main_v40 : FVec F S47 .f32 := broadcastInDim S47 ![] bcast_S_S47 main_cst_14
  let main_v41 : IVec S47 1 := cmpf .olt main_v39 main_v40
  let main_c_15 : IVec S_ 1 := constantI S_ 1 1#1
  let main_v42 : IVec S_ 1 := (fun x v => Host.reduce IntOp.andi x v reducesTo_S47_S_d0 h_S_) main_v41 main_c_15
  let main_v43 : IVec S_ 1 := andi main_v38 main_v42
  let main_v44 : FVec F S128x47 .f32 := Host.absf main_arg11
  let main_cst_16 : FVec F S_ .f32 := constant S_ .f32 0x7F800000#32
  let main_v45 : FVec F S128x47 .f32 := broadcastInDim S128x47 ![] bcast_S_S128x47 main_cst_16
  let main_v46 : IVec S128x47 1 := cmpf .olt main_v44 main_v45
  let main_c_17 : IVec S_ 1 := constantI S_ 1 1#1
  let main_v47 : IVec S_ 1 := (fun x v => Host.reduce IntOp.andi x v reducesTo_S128x47_S_d0_1 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128x47 .f32) (main_arg10 : FVec F S47 .f32) (main_arg11 : FVec F S128x47 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x47 .f32) (main_arg10 : FVec F S47 .f32) (main_arg11 : FVec F S128x47 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S1x47 : Shape := ⟨2, ![1, 47]⟩
abbrev S100000x47 : Shape := ⟨2, ![100000, 47]⟩
abbrev S4000x47 : Shape := ⟨2, ![4000, 47]⟩
abbrev S4000 : Shape := ⟨1, ![4000]⟩
abbrev S4000x1 : Shape := ⟨2, ![4000, 1]⟩

abbrev nBuf : Space → Nat
  | .hbm => 83
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x47, .f32⟩
  | .hbm, ⟨10, _⟩ => ⟨S47, .f32⟩
  | .hbm, ⟨11, _⟩ => ⟨S128x47, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S1x47, .f32⟩
  | .hbm, ⟨82, _⟩ => ⟨S100000x47, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x47, .f32⟩
  | .local _ .vmem, ⟨23, _⟩ => ⟨S1x47, .f32⟩
  | .local _ .vmem, ⟨24, _⟩ => ⟨S128x47, .f32⟩
  | .local _ .vmem, ⟨25, _⟩ => ⟨S4000x47, .f32⟩
  | .local _ .vmem, ⟨26, _⟩ => ⟨S4000x47, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_v9 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_5 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_6 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_7 : Ref sig .tc := ⟨.hbm, 49, rfl⟩
abbrev main_v26 : Ref sig .tc := ⟨.hbm, 50, rfl⟩
abbrev main_v27 : Ref sig .tc := ⟨.hbm, 51, rfl⟩
abbrev main_c_8 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_10 : Ref sig .tc := ⟨.hbm, 66, rfl⟩
abbrev main_v40 : Ref sig .tc := ⟨.hbm, 67, rfl⟩
abbrev main_v41 : Ref sig .tc := ⟨.hbm, 68, rfl⟩
abbrev main_c_11 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_12 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x47 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S47_S1x47 : S47.ShapeCasts S1x47
  inb_S128x47_S128x47_0_0 : ∀ a, (![0, 0] : Fin 2 → Nat) a + S128x47.size a ≤ S128x47.size a
  h_S128x47 : 0 < S128x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S4000x47 : S1x47.Broadcasts S4000x47
  reduces_S4000x47_S4000 : S4000x47.Reduces [1] S4000
  shapeCasts_S4000_S4000x1 : S4000.ShapeCasts S4000x1
  broadcasts_S4000x1_S4000x47 : S4000x1.Broadcasts S4000x47
  inb_S4000x47_S4000x47_0_0 : ∀ a, (![0, 0] : Fin 2 → Nat) a + S4000x47.size a ≤ S4000x47.size a
  h_S4000x47 : 0 < S4000x47.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x47_S4000x47_1_0_0_1_n_n_wf : DotDims.WF S4000x128 S128x47 S4000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x47.size a ≤ S128x47.size a
  hwx2_2 : ∀ i : grid2.Coords, EltTy.bits .f32 = 32 ∨ (Rect.block (s := S128x47) S128x47.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x47.size a ≤ S1x47.size a
  hwx2_3 : ∀ i : grid2.Coords, EltTy.bits .f32 = 32 ∨ (Rect.block (s := S1x47) S1x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x47.size a ≤ S128x47.size a
  hwx2_4 : ∀ i : grid2.Coords, EltTy.bits .f32 = 32 ∨ (Rect.block (s := S128x47) S128x47.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x47.size a ≤ S100000x47.size a
  hwx2_5 : ∀ i : grid2.Coords, EltTy.bits .f32 = 32 ∨ (Rect.block (s := S100000x47) S4000x47.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x47_S4000x47_1_0_0_1_n_n : DotDims S4000x128 S128x47 S4000x47 where
  lhsContracting := [1]
  rhsContracting := [0]
  lhsNonContracting := [0]
  rhsNonContracting := [1]
  lhsBatch := []
  rhsBatch := []
  wf := dot_S4000x128_S128x47_S4000x47_1_0_0_1_n_n_wf

abbrev win0_0 : Pipeline.Window sig grid0 :=
  Pipeline.Window.ofSpec (Memref.whole main_v23) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S4000x47.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x47 : Shape := ⟨2, ![100000, 47]⟩
abbrev S1x47 : Shape := ⟨2, ![1, 47]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x47, .f32⟩
  | .hbm, ⟨10, _⟩ => ⟨S47, .f32⟩
  | .hbm, ⟨11, _⟩ => ⟨S128x47, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x128, .f32⟩
  | .hbm, ⟨89, _⟩ => ⟨S_, .f32⟩
  | .hbm, ⟨90, _⟩ => ⟨S100000x128, .f32⟩
  | .hbm, ⟨91, _⟩ => ⟨S1600000x1, .i32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S100000x47, .f32⟩
  | .hbm, ⟨96, _⟩ => ⟨S1x47, .f32⟩
  | .hbm, ⟨97, _⟩ => ⟨S100000x47, .f32⟩
  | .hbm, ⟨98, _⟩ => ⟨S100000x47, .f32⟩
  | .hbm, ⟨99, _⟩ => ⟨S100000x47, .f32⟩
  | .hbm, ⟨100, _⟩ => ⟨S100000x47, .f32⟩
  | .hbm, ⟨101, _⟩ => ⟨S_, .f32⟩
  | .hbm, ⟨102, _⟩ => ⟨S100000, .f32⟩
  | .hbm, ⟨103, _⟩ => ⟨S_, .f32⟩
  | .hbm, ⟨104, _⟩ => ⟨S100000, .f32⟩
  | .hbm, ⟨105, _⟩ => ⟨S100000, .f32⟩
  | .hbm, ⟨106, _⟩ => ⟨S100000x1, .f32⟩
  | .hbm, ⟨107, _⟩ => ⟨S100000x47, .f32⟩
  | .hbm, ⟨108, _⟩ => ⟨S100000x47, .f32⟩
  | .hbm, ⟨109, _⟩ => ⟨S100000x47, .f32⟩
  | .hbm, ⟨110, _⟩ => ⟨S_, .f32⟩
  | .hbm, ⟨111, _⟩ => ⟨S100000, .f32⟩
  | .hbm, ⟨112, _⟩ => ⟨S100000x1, .f32⟩
  | .hbm, ⟨113, _⟩ => ⟨S100000x1, .f32⟩
  | .hbm, ⟨114, _⟩ => ⟨S100000x47, .f32⟩
  | .hbm, ⟨115, _⟩ => ⟨S100000x47, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_v9 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_5 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_6 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_cst : Ref sig .tc := ⟨.hbm, 53, rfl⟩
abbrev main_call1_v0 : Ref sig .tc := ⟨.hbm, 54, rfl⟩
abbrev main_v30 : Ref sig .tc := ⟨.hbm, 55, rfl⟩
abbrev main_c_7 : Ref sig .tc := ⟨.hbm, 56, rfl⟩
abbrev main_v31 : Ref sig .tc := ⟨.hbm, 57, rfl⟩
abbrev main_v32 : Ref sig .tc := ⟨.hbm, 58, rfl⟩
abbrev main_c_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call2_cst : Ref sig .tc := ⟨.hbm, 77, rfl⟩
abbrev main_call2_v0 : Ref sig .tc := ⟨.hbm, 78, rfl⟩
abbrev main_v49 : Ref sig .tc := ⟨.hbm, 79, rfl⟩
abbrev main_c_10 : Ref sig .tc := ⟨.hbm, 80, rfl⟩
abbrev main_v50 : Ref sig .tc := ⟨.hbm, 81, rfl⟩
abbrev main_v51 : Ref sig .tc := ⟨.hbm, 82, rfl⟩
abbrev main_c_11 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_12 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_call3_cst : Ref sig .tc := ⟨.hbm, 101, rfl⟩
abbrev main_call3_v0 : Ref sig .tc := ⟨.hbm, 102, rfl⟩
abbrev main_call3_cst_0 : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_v5 : Ref sig .tc := ⟨.hbm, 108, rfl⟩
abbrev main_call3_v6 : Ref sig .tc := ⟨.hbm, 109, rfl⟩
abbrev main_call3_cst_1 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_v68 : Ref sig .tc := ⟨.hbm, 115, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  reducesTo_S100000x47_S100000_d1 : S100000x47.ReducesTo [1] S100000
  h_S_ : 0 < S_.numel
  bcast_S100000x1_S100000x47_0_1 : S100000x1.BroadcastsInDim S100000x47 (![0, 1] : Fin 2 → Fin S100000x47.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x47_S100000x47_1_0_0_1_n_n_wf : DotDims.WF S100000x128 S128x47 S100000x47 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf

class Facts : Prop extends Facts₀ where

variable [Facts]
-- ==== Proof.KernelRun.lean ====
/-
  The run of the three-region program with its RESULT kept: every weakly fair execution terminates, nothing faults,
  and every unscoped buffer of every core — the result array among them — ends holding what the fold of the program's
  segments leaves there (the contents at the last segment boundary). The frame claim keeps only the argument arrays of
  that; the value claim needs the result array, so the same launch is stated once more with the whole final valuation
  in its post.
-/
import proofs.«132377_j39711267619348_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The result array and the twelve argument arrays at the end of a run. -/
theorem run_result : θ_run defs (onTc (τ := τ) (main (F := F))) ⟨m, fun _ => 0, ρ⟩ (fun r => ∀ c : Dev nD,
      r.2.mem ((c.tc : Thread nD τ).loc main_v53) = W8 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
      ⟨h c _ (mem_uc main_v53 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)
    (run_all m ρ)

end Cert.KernelIdeal.Run

end
-- ==== Proof.SageSpec.lean ====
/-
  One GraphSAGE layer on one node, over the extended reals.

  A node p with aggregated neighbour features a(p, ·) and own features h(p, ·) gets, for the output feature q,

      lin p q = Σ_k a(p,k)·Wl(k,q) + Σ_k h(p,k)·Wr(k,q) + b(q).

  A hidden layer clamps this below at the zero word (relu); the last layer takes the log-softmax of the row
  lin p ·: with m p the maximum of the row (a fold of max started from the word of −∞), s p q = lin p q − m p,
  the output is s p q − log Σ_k e^(s p k).

  Nothing here looks inside the arrays: rows are independent, so the same formulas read a 4000-row block and a
  100000-row array. The second half states two order facts used to meet a reference that writes the same layer
  with the bias added before the second product and with one more (idle) maximum against −∞.
-/
import Idealize.ShloMosaic.Lib.ValueIdx
import Idealize.ShloMosaic.PureOps.Ideal
import Idealize.ShloMosaic.PureOps.Ideal.Laws

noncomputable section

namespace Cert.Sage

open Idealize.ShloMosaic Idealize.ShloMosaic.ValueIdx

variable {n d e : ℕ}

/-- The affine part of a layer at node p, output feature q. -/
def lin (a h : (⟨2, ![n, d]⟩ : Shape).Idx → EReal) (Wl Wr : (⟨2, ![d, e]⟩ : Shape).Idx → EReal)
    (b : Fin e → EReal) (p : Fin n) (q : Fin e) : EReal :=
  (∑ k : Fin d, a (ix2 p k) * Wl (ix2 k q)) + (∑ k : Fin d, h (ix2 p k) * Wr (ix2 k q)) + b q

/-- The word of zero a relu clamps against, as an extended real (kept as the word: both sides carry the same one). -/
abbrev zeroWord : EReal := Ideal.ofBits .f32 0x00000000#32

/-- The word of −∞ a row maximum starts from. -/
abbrev negInfWord : EReal := Ideal.ofBits .f32 0xFF800000#32

/-- A hidden layer at (p, q): the affine part clamped below at zero. -/
def hid (a h : (⟨2, ![n, d]⟩ : Shape).Idx → EReal) (Wl Wr : (⟨2, ![d, e]⟩ : Shape).Idx → EReal)
    (b : Fin e → EReal) (p : Fin n) (q : Fin e) : EReal :=
  max (lin a h Wl Wr b p q) zeroWord

/-- The hidden layer as an array. -/
def hidden (a h : (⟨2, ![n, d]⟩ : Shape).Idx → EReal) (Wl Wr : (⟨2, ![d, e]⟩ : Shape).Idx → EReal)
    (b : Fin e → EReal) : (⟨2, ![n, e]⟩ : Shape).Idx → EReal :=
  fun i => hid a h Wl Wr b (i 0) (i 1)

/-- A row's maximum: the fold of max from −∞ over the row. -/
def rowTop (z : Fin n → Fin e → EReal) (p : Fin n) : EReal :=
  (Finset.univ : Finset (Fin e)).fold max negInfWord (fun k => z p k)

/-- The log-softmax of the rows of z at (p, q). -/
def logSoftmax (z : Fin n → Fin e → EReal) (p : Fin n) (q : Fin e) : EReal :=
  (z p q - rowTop z p) - Ideal.log (∑ k : Fin e, Ideal.exp (z p k - rowTop z p))

/-- The output layer at (p, q): log-softmax of the affine part's rows. -/
def out (a h : (⟨2, ![n, d]⟩ : Shape).Idx → EReal) (Wl Wr : (⟨2, ![d, e]⟩ : Shape).Idx → EReal)
    (b : Fin e → EReal) (p : Fin n) (q : Fin e) : EReal :=
  logSoftmax (fun p q => lin a h Wl Wr b p q) p q

/-- The output layer as an array. -/
def output (a h : (⟨2, ![n, d]⟩ : Shape).Idx → EReal) (Wl Wr : (⟨2, ![d, e]⟩ : Shape).Idx → EReal)
    (b : Fin e → EReal) : (⟨2, ![n, e]⟩ : Shape).Idx → EReal :=
  fun i => out a h Wl Wr b (i 0) (i 1)

/-- The affine part at (p, q) looks only at row p of the two feature arrays (and column q of the weights): two
    pairs of arrays that agree on those rows give the same value. This is what lets a block of rows stand for the
    rows of the whole array it was cut from. -/
theorem lin_congr {n' : ℕ} (a h : (⟨2, ![n, d]⟩ : Shape).Idx → EReal) (a' h' : (⟨2, ![n', d]⟩ : Shape).Idx → EReal)
    (Wl Wr Wl' Wr' : (⟨2, ![d, e]⟩ : Shape).Idx → EReal) (b b' : Fin e → EReal) (p : Fin n) (p' : Fin n') (q : Fin e)
    (ha : ∀ k, a (ix2 p k) = a' (ix2 p' k)) (hh : ∀ k, h (ix2 p k) = h' (ix2 p' k))
    (hl : Wl = Wl') (hr : Wr = Wr') (hb : b = b') :
    lin a h Wl Wr b p q = lin a' h' Wl' Wr' b' p' q := by
  subst hl hr hb
  unfold lin
  rw [Finset.sum_congr rfl fun k _ => congrArg (· * Wl (ix2 k q)) (ha k),
    Finset.sum_congr rfl fun k _ => congrArg (· * Wr (ix2 k q)) (hh k)]

/-- The same for a hidden layer. -/
theorem hid_congr {n' : ℕ} (a h : (⟨2, ![n, d]⟩ : Shape).Idx → EReal) (a' h' : (⟨2, ![n', d]⟩ : Shape).Idx → EReal)
    (Wl Wr Wl' Wr' : (⟨2, ![d, e]⟩ : Shape).Idx → EReal) (b b' : Fin e → EReal) (p : Fin n) (p' : Fin n') (q : Fin e)
    (ha : ∀ k, a (ix2 p k) = a' (ix2 p' k)) (hh : ∀ k, h (ix2 p k) = h' (ix2 p' k))
    (hl : Wl = Wl') (hr : Wr = Wr') (hb : b = b') :
    hid a h Wl Wr b p q = hid a' h' Wl' Wr' b' p' q := by
  unfold hid
  rw [lin_congr a h a' h' Wl Wr Wl' Wr' b b' p p' q ha hh hl hr hb]

/-- The log-softmax at (p, q) looks only at row p of its argument. -/
theorem logSoftmax_congr {n' : ℕ} (z : Fin n → Fin e → EReal) (z' : Fin n' → Fin e → EReal) (p : Fin n) (p' : Fin n')
    (q : Fin e) (hz : ∀ k, z p k = z' p' k) : logSoftmax z p q = logSoftmax z' p' q := by
  have ht : rowTop z p = rowTop z' p' := by
    unfold rowTop
    exact congrArg ((Finset.univ : Finset (Fin e)).fold max negInfWord) (funext hz)
  unfold logSoftmax
  rw [ht, hz q, Finset.sum_congr rfl fun k _ => congrArg (fun u => Ideal.exp (u - rowTop z' p')) (hz k)]

/-- The same for the output layer. -/
theorem out_congr {n' : ℕ} (a h : (⟨2, ![n, d]⟩ : Shape).Idx → EReal) (a' h' : (⟨2, ![n', d]⟩ : Shape).Idx → EReal)
    (Wl Wr Wl' Wr' : (⟨2, ![d, e]⟩ : Shape).Idx → EReal) (b b' : Fin e → EReal) (p : Fin n) (p' : Fin n') (q : Fin e)
    (ha : ∀ k, a (ix2 p k) = a' (ix2 p' k)) (hh : ∀ k, h (ix2 p k) = h' (ix2 p' k))
    (hl : Wl = Wl') (hr : Wr = Wr') (hb : b = b') :
    out a h Wl Wr b p q = out a' h' Wl' Wr' b' p' q := by
  unfold out
  exact logSoftmax_congr _ _ p p' q fun k => lin_congr a h a' h' Wl Wr Wl' Wr' b b' p p' k ha hh hl hr hb

/-- The affine part with the bias added between the two products: addition on the extended reals is commutative
    and associative (no finiteness is needed for that), so the order of the three terms does not matter. -/
theorem lin_bias_middle (a h : (⟨2, ![n, d]⟩ : Shape).Idx → EReal) (Wl Wr : (⟨2, ![d, e]⟩ : Shape).Idx → EReal)
    (b : Fin e → EReal) (p : Fin n) (q : Fin e) :
    (∑ k : Fin d, a (ix2 p k) * Wl (ix2 k q)) + b q + (∑ k : Fin d, h (ix2 p k) * Wr (ix2 k q))
      = lin a h Wl Wr b p q := by
  unfold lin
  exact add_right_comm _ _ _

/-- One more maximum against the fold's own start value changes nothing: the start value is below the fold. -/
theorem max_start_fold (z : Fin n → Fin e → EReal) (p : Fin n) :
    max negInfWord (rowTop z p) = rowTop z p :=
  max_eq_right ((Finset.le_fold_max _).mpr (Or.inl le_rfl))

/-- A sum started from the zero word is the sum. -/
theorem zero_start_sum (f : Fin e → EReal) : zeroWord + ∑ k : Fin e, f k = ∑ k : Fin e, f k := by
  rw [show zeroWord = 0 from Ideal.ofBits_zero_f32, zero_add]

end Cert.Sage

end
-- ==== Proof.LibHostRowMax.lean ====
/-
  The host's maximum of each row of an [a, b] matrix (a one-operand reduce with a maximum body over axis 1), read at a
  row: the fold of max, from the initial value's one element, over k of the matrix at (p, k). Any a, b, any float format.
  It is the same fold a kernel's lane maximum over axis 1 reads as, so the two can be compared term by term.
-/
import Idealize.ShloMosaic.Lib.ValueIdx
import Idealize.ShloMosaic.PureOps.Ideal
import Idealize.ShloMosaic.PureOps.Ideal.Laws
import Idealize.ShloMosaic.PureOps.Reduce

noncomputable section

namespace Cert.Lib

open Idealize.ShloMosaic Idealize.ShloMosaic.ValueIdx

/-- HOST ROW MAXIMA: at row p, the fold of max from the initial value over k of the matrix at (p, k). -/
theorem hostRowMax_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) := by
  refine (Host.reduce_eq_fold_single (FloatOps.maximumf (F := Ideal) (φ := φ)) x init h' h hu (ix1 p)).trans ?_
  refine congrArg ((Finset.univ : Finset (Fin b)).fold max (init (Shape.Idx.first hu))) (funext fun k => congrArg x (funext fun c => Fin.ext ?_))
  match c with
  | ⟨0, _⟩ => rfl
  | ⟨1, _⟩ => rfl

end Cert.Lib

end
-- ==== Proof.RefSoftmax.lean ====
/-
  The reference's outlined log_softmax — fifteen operations of ONE operand, the logits — as one operation, and what it
  is at an index over the extended reals: the row-wise log-softmax of `SageSpec`.

  It is stated for an arbitrary array in the logits' place, and the two reductions it contains (the row maximum, a host
  reduce by max from −∞ followed by one more, idle, maximum against −∞; the row sum of exponentials, a host sum from 0)
  enter the layout around them as PARAMETERS: a per-row vector is stood up as a column and repeated along the row. So the
  layout is read at an index once, over variables, and the reductions are read separately by their own laws; nothing
  here ever opens a reduction over the whole array.
-/
import proofs.«132377_j39711267619348_1_alg».proof.Proof.RefRead
import proofs.«132377_j39711267619348_1_alg».proof.Proof.SageSpec
import proofs.«132377_j39711267619348_1_alg».proof.Proof.LibHostRowMax

noncomputable section

namespace Cert.ReferenceIdeal.Softmax

open Cert.ReferenceIdeal Cert.ReferenceIdeal.Gen Cert.ReferenceIdeal.ReadP Idealize.ShloMosaic Idealize.ShloMosaic.ValueIdx Cert.Sage

section Generic

variable {F : FTy → Type} [FloatOps F]

/-- The logits minus a per-row value R, after one more maximum of R against −∞: the reference's layout around its row maximum. -/
def shiftBy (R : (⟨S100000, .f32⟩ : BufTy).Contents (Elt F)) (Z : (⟨S100000x47, .f32⟩ : BufTy).Contents (Elt F)) : (⟨S100000x47, .f32⟩ : BufTy).Contents (Elt F) :=
  subf Z (broadcastInDim S100000x47 ![0, 1] bcast_S100000x1_S100000x47_0_1
    (broadcastInDim S100000x1 ![0] bcast_S100000_S100000x1_0
      (maximumf (broadcastInDim S100000 ![] bcast_S_S100000 (constant S_ .f32 0xFF800000#32)) R)))

/-- The logarithm of a per-row value S, repeated along the row: the reference's layout around its row sum. -/
def logAlongRow (S : (⟨S100000, .f32⟩ : BufTy).Contents (Elt F)) : (⟨S100000x47, .f32⟩ : BufTy).Contents (Elt F) :=
  broadcastInDim S100000x47 ![0, 1] bcast_S100000x1_S100000x47_0_1
    (Host.log (broadcastInDim S100000x1 ![0] bcast_S100000_S100000x1_0 S))

/-- The logits shifted by their row maximum, as the reference spells it. -/
def hostShift (Z : (⟨S100000x47, .f32⟩ : BufTy).Contents (Elt F)) : (⟨S100000x47, .f32⟩ : BufTy).Contents (Elt F) :=
  shiftBy (Host.reduce FloatOps.maximumf Z (constant S_ .f32 0xFF800000#32) reducesTo_S100000x47_S100000_d1 h_S_) Z

/-- The reference's log_softmax of an array of logits. -/
def hostLogSoftmax (Z : (⟨S100000x47, .f32⟩ : BufTy).Contents (Elt F)) : (⟨S100000x47, .f32⟩ : BufTy).Contents (Elt F) :=
  subf (hostShift Z)
    (logAlongRow (Host.reduceAdd (Host.exp (hostShift Z)) (constant S_ .f32 0x00000000#32) reducesTo_S100000x47_S100000_d1 h_S_))

/-- The log-softmax with the row maximum R given: what the last thirteen operations compute from the logits and from the
    buffer that holds their row maximum. -/
def softmaxWith (R : (⟨S100000, .f32⟩ : BufTy).Contents (Elt F)) (Z : (⟨S100000x47, .f32⟩ : BufTy).Contents (Elt F)) : (⟨S100000x47, .f32⟩ : BufTy).Contents (Elt F) :=
  subf (shiftBy R Z)
    (logAlongRow (Host.reduceAdd (Host.exp (shiftBy R Z)) (constant S_ .f32 0x00000000#32) reducesTo_S100000x47_S100000_d1 h_S_))

theorem hostLogSoftmax_eq (Z : (⟨S100000x47, .f32⟩ : BufTy).Contents (Elt F)) : hostLogSoftmax Z
    = softmaxWith (Host.reduce FloatOps.maximumf Z (constant S_ .f32 0xFF800000#32) reducesTo_S100000x47_S100000_d1 h_S_) Z := by
  unfold hostLogSoftmax hostShift softmaxWith
  rfl

variable (x0 : (⟨S100000x128, .f32⟩ : BufTy).Contents (Elt F)) (x1 : (⟨S1600000, .i32⟩ : BufTy).Contents (Elt F)) (x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128x47, .f32⟩ : BufTy).Contents (Elt F)) (x10 : (⟨S47, .f32⟩ : BufTy).Contents (Elt F)) (x11 : (⟨S128x47, .f32⟩ : BufTy).Contents (Elt F))

/-- The reference's last stage function is that operation of its logits stage. -/
theorem output_read : val_main_v68 (F := F) x0 x1 x2 x3 x4 x5 x6 x7 x8 x9 x10 x11 = hostLogSoftmax (val_main_v67 (F := F) x0 x1 x2 x3 x4 x5 x6 x7 x8 x9 x10 x11) := by
  unfold val_main_v68 val_main_call3_v10 val_main_call3_v9 val_main_call3_v8 val_main_call3_v7 val_main_call3_cst_1
    val_main_call3_v6 val_main_call3_v5 val_main_call3_v4 val_main_call3_v3 val_main_call3_v2 val_main_call3_v1
    val_main_call3_cst_0 val_main_call3_v0 val_main_call3_cst hostLogSoftmax hostShift shiftBy logAlongRow
  generalize val_main_v67 (F := F) x0 x1 x2 x3 x4 x5 x6 x7 x8 x9 x10 x11 = Z
  rfl

end Generic

/-! ## At an index, over the extended reals: the layout, over variables -/

theorem column_apply {α : Type} (v : S100000.Idx → α) (p : Fin 100000) :
    broadcastInDim S100000x1 ![0] bcast_S100000_S100000x1_0 v (ix2 p (0 : Fin 1)) = v (ix1 p) :=
  broadcastInDim_apply _ bcast_S100000_S100000x1_0 v (ix2 p (0 : Fin 1)) (ix1 p) (fun a => match a with
    | ⟨0, _⟩ => by show p.val = if (100000 : Nat) = 1 then 0 else p.val; rw [if_neg (by decide)])

theorem along_row_apply {α : Type} (w : S100000x1.Idx → α) (p : Fin 100000) (q : Fin 47) :
    broadcastInDim S100000x47 ![0, 1] bcast_S100000x1_S100000x47_0_1 w (ix2 p q) = w (ix2 p (0 : Fin 1)) :=
  broadcastInDim_apply _ bcast_S100000x1_S100000x47_0_1 w (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])

theorem negInf_row (p : Fin 100000) :
    broadcastInDim S100000 ![] bcast_S_S100000 (constant (F := Ideal) S_ .f32 0xFF800000#32) (ix1 p) = negInfWord := rfl

theorem negInf_first : constant (F := Ideal) S_ .f32 0xFF800000#32 (Shape.Idx.first h_S_) = negInfWord := rfl

theorem zero_first : constant (F := Ideal) S_ .f32 0x00000000#32 (Shape.Idx.first h_S_) = zeroWord := rfl

theorem host_exp_apply (x : FVec Ideal S100000x47 .f32) (i : S100000x47.Idx) : Host.exp (F := Ideal) (φ := .f32) x i = Ideal.exp (x i) := rfl

theorem host_log_apply (x : FVec Ideal S100000x1 .f32) (i : S100000x1.Idx) : Host.log (F := Ideal) (φ := .f32) x i = Ideal.log (x i) := rfl

theorem shiftBy_apply (R : (⟨S100000, .f32⟩ : BufTy).Contents (Elt Ideal)) (Z : (⟨S100000x47, .f32⟩ : BufTy).Contents (Elt Ideal)) (p : Fin 100000) (q : Fin 47) :
    shiftBy (F := Ideal) R Z (ix2 p q) = Z (ix2 p q) - max negInfWord (R (ix1 p)) := by
  unfold shiftBy
  rw [subf_apply, along_row_apply, column_apply, maximumf_apply, negInf_row]

theorem logAlongRow_apply (S : (⟨S100000, .f32⟩ : BufTy).Contents (Elt Ideal)) (p : Fin 100000) (q : Fin 47) :
    logAlongRow (F := Ideal) S (ix2 p q) = Ideal.log (S (ix1 p)) := by
  unfold logAlongRow
  rw [along_row_apply, host_log_apply, column_apply]

/-! ## The two reductions -/

/-- The shifted logits at (p, q). -/
theorem hostShift_apply (Z : (⟨S100000x47, .f32⟩ : BufTy).Contents (Elt Ideal)) (p : Fin 100000) (q : Fin 47) :
    hostShift (F := Ideal) Z (ix2 p q) = Z (ix2 p q) - rowTop (fun p q => Z (ix2 p q)) p := by
  unfold hostShift
  rw [shiftBy_apply, Cert.Lib.hostRowMax_apply (h := by decide), negInf_first]
  exact congrArg (Z (ix2 p q) - ·) (max_start_fold (fun p q => Z (ix2 p q)) p)

/-- The reference's log_softmax at (p, q) is the row-wise log-softmax. -/
theorem hostLogSoftmax_apply (Z : (⟨S100000x47, .f32⟩ : BufTy).Contents (Elt Ideal)) (p : Fin 100000) (q : Fin 47) :
    hostLogSoftmax (F := Ideal) Z (ix2 p q) = logSoftmax (fun p q => Z (ix2 p q)) p q := by
  unfold hostLogSoftmax
  rw [subf_apply, hostShift_apply, logAlongRow_apply]
  generalize hY : Host.exp (F := Ideal) (φ := .f32) (hostShift (F := Ideal) Z) = Y
  simp only [Host.reduceAdd, Ideal.hostReduceAdd_def]
  rw [Ideal.hostReduceAdd_single reducesTo_S100000x47_S100000_d1 (by decide), zero_first]
  unfold logSoftmax
  refine congrArg (fun u => Z (ix2 p q) - rowTop (fun p q => Z (ix2 p q)) p - Ideal.log u) ?_
  refine (zero_start_sum _).trans (Finset.sum_congr rfl fun k _ => ?_)
  subst hY
  rw [host_exp_apply]
  refine congrArg Ideal.exp ?_
  exact (congrArg (hostShift (F := Ideal) Z) (funext fun a => Fin.ext (by match a with | ⟨0, _⟩ => rfl | ⟨1, _⟩ => rfl))).trans
    (hostShift_apply Z p k)

end Cert.ReferenceIdeal.Softmax

end
-- ==== Proof.RefStages.lean ====
/-
  The reference's run, cut in six stages — the in-degree normaliser, the two hidden layers, the output layer's logits, their row maximum and the rest of the log-softmax — so that each stage is read
  from the buffers the previous one left and no term ever spells the whole network out as one tree.

  A straight line of host operations leaves every buffer at the fold of the operations' results over the launch
  contents. The fold over a list cut in two is the second part's fold over what the first leaves; cutting the
  reference's 104 operations after the 20th, 44th, 68th, 89th and 91st gives the six stages. Stage by stage, for ANY contents W
  at the stage's start: the stage leaves the arguments alone, and its result buffer holds the corresponding stage
  function of the reference (`val_main_v11`, `val_main_v30`, `val_main_v49`, `val_main_v67`, `val_main_v68`) of the arguments,
  provided the buffers it reads from earlier stages hold theirs.
-/
import proofs.«132377_j39711267619348_1_alg».proof.Proof.RefSoftmax

set_option maxRecDepth 16384

noncomputable section

namespace Cert.ReferenceIdeal.Stages

open Cert.ReferenceIdeal Cert.ReferenceIdeal.Gen Cert.ReferenceIdeal.ValueP Cert.ReferenceIdeal.ReadP Cert.ReferenceIdeal.Softmax
open Idealize.ShloMosaic Idealize.ShloMosaic.TcCoe Idealize.SL.Sem Idealize.ShloMosaic.StableHlo

variable {F : FTy → Type} [FloatOps F]

/-- The fold over a line cut in two is the second part's fold over what the first part leaves. -/
theorem after_append (l₁ l₂ : List (HloOp τ sig (Elt F))) (V : Valuation τ sig (Elt F)) :
    after (l₁ ++ l₂) V = after l₂ (after l₁ V) := by
  induction l₁ generalizing V with
  | nil => rfl
  | cons a l ih => exact ih _

/-- The reference's line cut after its 20th, 44th, 68th, 89th and 91st operation. -/
theorem after_cut (V : Valuation τ sig (Elt F)) :
    after (ops (F := F)) V
      = after (List.drop 91 (ops (F := F))) (after (List.take 2 (List.drop 89 (ops (F := F)))) (after (List.take 21 (List.drop 68 (ops (F := F)))) (after (List.take 24 (List.drop 44 (ops (F := F)))) (after (List.take 24 (List.drop 20 (ops (F := F)))) (after (List.take 20 (ops (F := F))) V))))) := by
  rw [← after_append, ← after_append, ← after_append, ← after_append, ← after_append]
  refine congrArg (after · V) ?_
  rw [← List.drop_drop (i := 2) (j := 89), List.take_append_drop, ← List.drop_drop (i := 21) (j := 68), List.take_append_drop,
    ← List.drop_drop (i := 24) (j := 44), List.take_append_drop, ← List.drop_drop (i := 24) (j := 20), List.take_append_drop,
    List.take_append_drop]

variable (W : Valuation τ sig (Elt F))
variable (x0 : (⟨S100000x128, .f32⟩ : BufTy).Contents (Elt F)) (x1 : (⟨S1600000, .i32⟩ : BufTy).Contents (Elt F)) (x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128x47, .f32⟩ : BufTy).Contents (Elt F)) (x10 : (⟨S47, .f32⟩ : BufTy).Contents (Elt F)) (x11 : (⟨S128x47, .f32⟩ : BufTy).Contents (Elt F))

/-! ## Stage 1: the in-degree normaliser -/

theorem nrm_stage : after (List.take 20 (ops (F := F))) W (Proc.devRef .tc main_v11) = val_main_v11 (F := F) (W (Proc.devRef .tc main_arg2)) := by
  simp only [ops, List.take_succ_cons, List.take_zero, List.drop_succ_cons, List.drop_zero]
  after_results_simp
  rfl

theorem s1_keep_main_arg0 : after (List.take 20 (ops (F := F))) W (Proc.devRef .tc main_arg0) = W (Proc.devRef .tc main_arg0) := by
  simp only [ops, List.take_succ_cons, List.take_zero, List.drop_succ_cons, List.drop_zero]
  after_results_simp

theorem s1_keep_main_arg1 : after (List.take 20 (ops (F := F))) W (Proc.devRef .tc main_arg1) = W (Proc.devRef .tc main_arg1) := by
  simp only [ops, List.take_succ_cons, List.take_zero, List.drop_succ_cons, List.drop_zero]
  after_results_simp

theorem s1_keep_main_arg2 : after (List.take 20 (ops (F := F))) W (Proc.devRef .tc main_arg2) = W (Proc.devRef .tc main_arg2) := by
  simp only [ops, List.take_succ_cons, List.take_zero, List.drop_succ_cons, List.drop_zero]
  after_results_simp

theorem s1_keep_main_arg3 : after (List.take 20 (ops (F := F))) W (Proc.devRef .tc main_arg3) = W (Proc.devRef .tc main_arg3) := by
  simp only [ops, List.take_succ_cons, List.take_zero, List.drop_succ_cons, List.drop_zero]
  after_results_simp

theorem s1_keep_main_arg4 : after (List.take 20 (ops (F := F))) W (Proc.devRef .tc main_arg4) = W (Proc.devRef .tc main_arg4) := by
  simp only [ops, List.take_succ_cons, List.take_zero, List.drop_succ_cons, List.drop_zero]
  after_results_simp

theorem s1_keep_main_arg5 : after (List.take 20 (ops (F := F))) W (Proc.devRef .tc main_arg5) = W (Proc.devRef .tc main_arg5) := by
  simp only [ops, List.take_succ_cons, List.take_zero, List.drop_succ_cons, List.drop_zero]
  after_results_simp

theorem s1_keep_main_arg6 : after (List.take 20 (ops (F := F))) W (Proc.devRef .tc main_arg6) = W (Proc.devRef .tc main_arg6) := by
  simp only [ops, List.take_succ_cons, List.take_zero, List.drop_succ_cons, List.drop_zero]
  after_results_simp

theorem s1_keep_main_arg7 : after (List.take 20 (ops (F := F))) W (Proc.devRef .tc main_arg7) = W (Proc.devRef .tc main_arg7) := by
  simp only [ops, List.take_succ_cons, List.take_zero, List.drop_succ_cons, List.drop_zero]
  after_results_simp

theorem s1_keep_main_arg8 : after (List.take 20 (ops (F := F))) W (Proc.devRef .tc main_arg8) = W (Proc.devRef .tc main_arg8) := by
  simp only [ops, List.take_succ_cons, List.take_zero, List.drop_succ_cons, List.drop_zero]
  after_results_simp

theorem s1_keep_main_arg9 : after (List.take 20 (ops (F := F))) W (Proc.devRef .tc main_arg9) = W (Proc.devRef .tc main_arg9) := by
  simp only [ops, List.take_succ_cons, List.take_zero, List.drop_succ_cons, List.drop_zero]
  after_results_simp

theorem s1_keep_main_arg10 : after (List.take 20 (ops (F := F))) W (Proc.devRef .tc main_arg10) = W (Proc.devRef .tc main_arg10) := by
  simp only [ops, List.take_succ_cons, List.take_zero, List.drop_succ_cons, List.drop_zero]
  after_results_simp

theorem s1_keep_main_arg11 : after (List.take 20 (ops (F := F))) W (Proc.devRef .tc main_arg11) = W (Proc.devRef .tc main_arg11) := by
  simp only [ops, List.take_succ_cons, List.take_zero, List.drop_succ_cons, List.drop_zero]
  after_results_simp

/-! ## Stage 2: the first hidden layer -/

theorem hidden0_stage (h0 : W (Proc.devRef .tc main_arg0) = x0) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5) (hn : W (Proc.devRef .tc main_v11) = val_main_v11 (F := F) x2) :
    after (List.take 24 (List.drop 20 (ops (F := F)))) W (Proc.devRef .tc main_v30) = val_main_v30 (F := F) x0 x1 x2 x3 x4 x5 := by
  simp only [ops, List.take_succ_cons, List.take_zero, List.drop_succ_cons, List.drop_zero]
  after_results_simp
  rw [h0, h1, h2, h3, h4, h5, hn]
  rfl

theorem s2_keep_main_v11 : after (List.take 24 (List.drop 20 (ops (F := F)))) W (Proc.devRef .tc main_v11) = W (Proc.devRef .tc main_v11) := by
  simp only [ops, List.take_succ_cons, List.take_zero, List.drop_succ_cons, List.drop_zero]
  after_results_simp

theorem s2_keep_main_arg0 : after (List.take 24 (List.drop 20 (ops (F := F)))) W (Proc.devRef .tc main_arg0) = W (Proc.devRef .tc main_arg0) := by
  simp only [ops, List.take_succ_cons, List.take_zero, List.drop_succ_cons, List.drop_zero]
  after_results_simp

theorem s2_keep_main_arg1 : after (List.take 24 (List.drop 20 (ops (F := F)))) W (Proc.devRef .tc main_arg1) = W (Proc.devRef .tc main_arg1) := by
  simp only [ops, List.take_succ_cons, List.take_zero, List.drop_succ_cons, List.drop_zero]
  after_results_simp

theorem s2_keep_main_arg2 : after (List.take 24 (List.drop 20 (ops (F := F)))) W (Proc.devRef .tc main_arg2) = W (Proc.devRef .tc main_arg2) := by
  simp only [ops, List.take_succ_cons, List.take_zero, List.drop_succ_cons, List.drop_zero]
  after_results_simp

theorem s2_keep_main_arg3 : after (List.take 24 (List.drop 20 (ops (F := F)))) W (Proc.devRef .tc main_arg3) = W (Proc.devRef .tc main_arg3) := by
  simp only [ops, List.take_succ_cons, List.take_zero, List.drop_succ_cons, List.drop_zero]
  after_results_simp

theorem s2_keep_main_arg4 : after (List.take 24 (List.drop 20 (ops (F := F)))) W (Proc.devRef .tc main_arg4) = W (Proc.devRef .tc main_arg4) := by
  simp only [ops, List.take_succ_cons, List.take_zero, List.drop_succ_cons, List.drop_zero]
  after_results_simp

theorem s2_keep_main_arg5 : after (List.take 24 (List.drop 20 (ops (F := F)))) W (Proc.devRef .tc main_arg5) = W (Proc.devRef .tc main_arg5) := by
  simp only [ops, List.take_succ_cons, List.take_zero, List.drop_succ_cons, List.drop_zero]
  after_results_simp

theorem s2_keep_main_arg6 : after (List.take 24 (List.drop 20 (ops (F := F)))) W (Proc.devRef .tc main_arg6) = W (Proc.devRef .tc main_arg6) := by
  simp only [ops, List.take_succ_cons, List.take_zero, List.drop_succ_cons, List.drop_zero]
  after_results_simp

theorem s2_keep_main_arg7 : after (List.take 24 (List.drop 20 (ops (F := F)))) W (Proc.devRef .tc main_arg7) = W (Proc.devRef .tc main_arg7) := by
  simp only [ops, List.take_succ_cons, List.take_zero, List.drop_succ_cons, List.drop_zero]
  after_results_simp

theorem s2_keep_main_arg8 : after (List.take 24 (List.drop 20 (ops (F := F)))) W (Proc.devRef .tc main_arg8) = W (Proc.devRef .tc main_arg8) := by
  simp only [ops, List.take_succ_cons, List.take_zero, List.drop_succ_cons, List.drop_zero]
  after_results_simp

theorem s2_keep_main_arg9 : after (List.take 24 (List.drop 20 (ops (F := F)))) W (Proc.devRef .tc main_arg9) = W (Proc.devRef .tc main_arg9) := by
  simp only [ops, List.take_succ_cons, List.take_zero, List.drop_succ_cons, List.drop_zero]
  after_results_simp

theorem s2_keep_main_arg10 : after (List.take 24 (List.drop 20 (ops (F := F)))) W (Proc.devRef .tc main_arg10) = W (Proc.devRef .tc main_arg10) := by
  simp only [ops, List.take_succ_cons, List.take_zero, List.drop_succ_cons, List.drop_zero]
  after_results_simp

theorem s2_keep_main_arg11 : after (List.take 24 (List.drop 20 (ops (F := F)))) W (Proc.devRef .tc main_arg11) = W (Proc.devRef .tc main_arg11) := by
  simp only [ops, List.take_succ_cons, List.take_zero, List.drop_succ_cons, List.drop_zero]
  after_results_simp

/-! ## Stage 3: the second hidden layer -/

theorem hidden1_stage (h1 : W (Proc.devRef .tc main_arg1) = x1) (h2 : W (Proc.devRef .tc main_arg2) = x2) (h6 : W (Proc.devRef .tc main_arg6) = x6) (h7 : W (Proc.devRef .tc main_arg7) = x7) (h8 : W (Proc.devRef .tc main_arg8) = x8) (hn : W (Proc.devRef .tc main_v11) = val_main_v11 (F := F) x2)
    (hh : W (Proc.devRef .tc main_v30) = val_main_v30 (F := F) x0 x1 x2 x3 x4 x5) :
    after (List.take 24 (List.drop 44 (ops (F := F)))) W (Proc.devRef .tc main_v49) = val_main_v49 (F := F) x0 x1 x2 x3 x4 x5 x6 x7 x8 := by
  simp only [ops, List.take_succ_cons, List.take_zero, List.drop_succ_cons, List.drop_zero]
  after_results_simp
  rw [h1, h2, h6, h7, h8, hn, hh]
  rfl

theorem s3_keep_main_v11 : after (List.take 24 (List.drop 44 (ops (F := F)))) W (Proc.devRef .tc main_v11) = W (Proc.devRef .tc main_v11) := by
  simp only [ops, List.take_succ_cons, List.take_zero, List.drop_succ_cons, List.drop_zero]
  after_results_simp

theorem s3_keep_main_arg0 : after (List.take 24 (List.drop 44 (ops (F := F)))) W (Proc.devRef .tc main_arg0) = W (Proc.devRef .tc main_arg0) := by
  simp only [ops, List.take_succ_cons, List.take_zero, List.drop_succ_cons, List.drop_zero]
  after_results_simp

theorem s3_keep_main_arg1 : after (List.take 24 (List.drop 44 (ops (F := F)))) W (Proc.devRef .tc main_arg1) = W (Proc.devRef .tc main_arg1) := by
  simp only [ops, List.take_succ_cons, List.take_zero, List.drop_succ_cons, List.drop_zero]
  after_results_simp

theorem s3_keep_main_arg2 : after (List.take 24 (List.drop 44 (ops (F := F)))) W (Proc.devRef .tc main_arg2) = W (Proc.devRef .tc main_arg2) := by
  simp only [ops, List.take_succ_cons, List.take_zero, List.drop_succ_cons, List.drop_zero]
  after_results_simp

theorem s3_keep_main_arg3 : after (List.take 24 (List.drop 44 (ops (F := F)))) W (Proc.devRef .tc main_arg3) = W (Proc.devRef .tc main_arg3) := by
  simp only [ops, List.take_succ_cons, List.take_zero, List.drop_succ_cons, List.drop_zero]
  after_results_simp

theorem s3_keep_main_arg4 : after (List.take 24 (List.drop 44 (ops (F := F)))) W (Proc.devRef .tc main_arg4) = W (Proc.devRef .tc main_arg4) := by
  simp only [ops, List.take_succ_cons, List.take_zero, List.drop_succ_cons, List.drop_zero]
  after_results_simp

theorem s3_keep_main_arg5 : after (List.take 24 (List.drop 44 (ops (F := F)))) W (Proc.devRef .tc main_arg5) = W (Proc.devRef .tc main_arg5) := by
  simp only [ops, List.take_succ_cons, List.take_zero, List.drop_succ_cons, List.drop_zero]
  after_results_simp

theorem s3_keep_main_arg6 : after (List.take 24 (List.drop 44 (ops (F := F)))) W (Proc.devRef .tc main_arg6) = W (Proc.devRef .tc main_arg6) := by
  simp only [ops, List.take_succ_cons, List.take_zero, List.drop_succ_cons, List.drop_zero]
  after_results_simp

theorem s3_keep_main_arg7 : after (List.take 24 (List.drop 44 (ops (F := F)))) W (Proc.devRef .tc main_arg7) = W (Proc.devRef .tc main_arg7) := by
  simp only [ops, List.take_succ_cons, List.take_zero, List.drop_succ_cons, List.drop_zero]
  after_results_simp

theorem s3_keep_main_arg8 : after (List.take 24 (List.drop 44 (ops (F := F)))) W (Proc.devRef .tc main_arg8) = W (Proc.devRef .tc main_arg8) := by
  simp only [ops, List.take_succ_cons, List.take_zero, List.drop_succ_cons, List.drop_zero]
  after_results_simp

theorem s3_keep_main_arg9 : after (List.take 24 (List.drop 44 (ops (F := F)))) W (Proc.devRef .tc main_arg9) = W (Proc.devRef .tc main_arg9) := by
  simp only [ops, List.take_succ_cons, List.take_zero, List.drop_succ_cons, List.drop_zero]
  after_results_simp

theorem s3_keep_main_arg10 : after (List.take 24 (List.drop 44 (ops (F := F)))) W (Proc.devRef .tc main_arg10) = W (Proc.devRef .tc main_arg10) := by
  simp only [ops, List.take_succ_cons, List.take_zero, List.drop_succ_cons, List.drop_zero]
  after_results_simp

theorem s3_keep_main_arg11 : after (List.take 24 (List.drop 44 (ops (F := F)))) W (Proc.devRef .tc main_arg11) = W (Proc.devRef .tc main_arg11) := by
  simp only [ops, List.take_succ_cons, List.take_zero, List.drop_succ_cons, List.drop_zero]
  after_results_simp

/-! ## Stage 4: the output layer's logits -/

theorem logits_stage (h1 : W (Proc.devRef .tc main_arg1) = x1) (h2 : W (Proc.devRef .tc main_arg2) = x2) (h9 : W (Proc.devRef .tc main_arg9) = x9) (h10 : W (Proc.devRef .tc main_arg10) = x10) (h11 : W (Proc.devRef .tc main_arg11) = x11) (hn : W (Proc.devRef .tc main_v11) = val_main_v11 (F := F) x2)
    (hh : W (Proc.devRef .tc main_v49) = val_main_v49 (F := F) x0 x1 x2 x3 x4 x5 x6 x7 x8) :
    after (List.take 21 (List.drop 68 (ops (F := F)))) W (Proc.devRef .tc main_v67) = val_main_v67 (F := F) x0 x1 x2 x3 x4 x5 x6 x7 x8 x9 x10 x11 := by
  simp only [ops, List.take_succ_cons, List.take_zero, List.drop_succ_cons, List.drop_zero]
  after_results_simp
  rw [h1, h2, h9, h10, h11, hn, hh]
  rfl

theorem s4_keep_main_arg0 : after (List.take 21 (List.drop 68 (ops (F := F)))) W (Proc.devRef .tc main_arg0) = W (Proc.devRef .tc main_arg0) := by
  simp only [ops, List.take_succ_cons, List.take_zero, List.drop_succ_cons, List.drop_zero]
  after_results_simp

theorem s4_keep_main_arg1 : after (List.take 21 (List.drop 68 (ops (F := F)))) W (Proc.devRef .tc main_arg1) = W (Proc.devRef .tc main_arg1) := by
  simp only [ops, List.take_succ_cons, List.take_zero, List.drop_succ_cons, List.drop_zero]
  after_results_simp

theorem s4_keep_main_arg2 : after (List.take 21 (List.drop 68 (ops (F := F)))) W (Proc.devRef .tc main_arg2) = W (Proc.devRef .tc main_arg2) := by
  simp only [ops, List.take_succ_cons, List.take_zero, List.drop_succ_cons, List.drop_zero]
  after_results_simp

theorem s4_keep_main_arg3 : after (List.take 21 (List.drop 68 (ops (F := F)))) W (Proc.devRef .tc main_arg3) = W (Proc.devRef .tc main_arg3) := by
  simp only [ops, List.take_succ_cons, List.take_zero, List.drop_succ_cons, List.drop_zero]
  after_results_simp

theorem s4_keep_main_arg4 : after (List.take 21 (List.drop 68 (ops (F := F)))) W (Proc.devRef .tc main_arg4) = W (Proc.devRef .tc main_arg4) := by
  simp only [ops, List.take_succ_cons, List.take_zero, List.drop_succ_cons, List.drop_zero]
  after_results_simp

theorem s4_keep_main_arg5 : after (List.take 21 (List.drop 68 (ops (F := F)))) W (Proc.devRef .tc main_arg5) = W (Proc.devRef .tc main_arg5) := by
  simp only [ops, List.take_succ_cons, List.take_zero, List.drop_succ_cons, List.drop_zero]
  after_results_simp

theorem s4_keep_main_arg6 : after (List.take 21 (List.drop 68 (ops (F := F)))) W (Proc.devRef .tc main_arg6) = W (Proc.devRef .tc main_arg6) := by
  simp only [ops, List.take_succ_cons, List.take_zero, List.drop_succ_cons, List.drop_zero]
  after_results_simp

theorem s4_keep_main_arg7 : after (List.take 21 (List.drop 68 (ops (F := F)))) W (Proc.devRef .tc main_arg7) = W (Proc.devRef .tc main_arg7) := by
  simp only [ops, List.take_succ_cons, List.take_zero, List.drop_succ_cons, List.drop_zero]
  after_results_simp

theorem s4_keep_main_arg8 : after (List.take 21 (List.drop 68 (ops (F := F)))) W (Proc.devRef .tc main_arg8) = W (Proc.devRef .tc main_arg8) := by
  simp only [ops, List.take_succ_cons, List.take_zero, List.drop_succ_cons, List.drop_zero]
  after_results_simp

theorem s4_keep_main_arg9 : after (List.take 21 (List.drop 68 (ops (F := F)))) W (Proc.devRef .tc main_arg9) = W (Proc.devRef .tc main_arg9) := by
  simp only [ops, List.take_succ_cons, List.take_zero, List.drop_succ_cons, List.drop_zero]
  after_results_simp

theorem s4_keep_main_arg10 : after (List.take 21 (List.drop 68 (ops (F := F)))) W (Proc.devRef .tc main_arg10) = W (Proc.devRef .tc main_arg10) := by
  simp only [ops, List.take_succ_cons, List.take_zero, List.drop_succ_cons, List.drop_zero]
  after_results_simp

theorem s4_keep_main_arg11 : after (List.take 21 (List.drop 68 (ops (F := F)))) W (Proc.devRef .tc main_arg11) = W (Proc.devRef .tc main_arg11) := by
  simp only [ops, List.take_succ_cons, List.take_zero, List.drop_succ_cons, List.drop_zero]
  after_results_simp

/-! ## Stage 5: the row maximum of the logits

The reference's outlined log_softmax is fifteen operations of ONE operand, the logits (`RefSoftmax`); its first two
compute the row maximum. The stage is stated for an arbitrary array in the logits' place. -/

theorem max_stage (Z : (⟨S100000x47, .f32⟩ : BufTy).Contents (Elt F)) (hz : W (Proc.devRef .tc main_v67) = Z) :
    after (List.take 2 (List.drop 89 (ops (F := F)))) W (Proc.devRef .tc main_call3_v0)
      = Host.reduce FloatOps.maximumf Z (constant S_ .f32 0xFF800000#32) reducesTo_S100000x47_S100000_d1 h_S_ := by
  simp only [ops, List.take_succ_cons, List.take_zero, List.drop_succ_cons, List.drop_zero]
  after_results_simp
  rw [hz]
  simp only [cast_eq]

theorem s5_keep_main_v67 : after (List.take 2 (List.drop 89 (ops (F := F)))) W (Proc.devRef .tc main_v67) = W (Proc.devRef .tc main_v67) := by
  simp only [ops, List.take_succ_cons, List.take_zero, List.drop_succ_cons, List.drop_zero]
  after_results_simp

theorem s5_keep_main_arg0 : after (List.take 2 (List.drop 89 (ops (F := F)))) W (Proc.devRef .tc main_arg0) = W (Proc.devRef .tc main_arg0) := by
  simp only [ops, List.take_succ_cons, List.take_zero, List.drop_succ_cons, List.drop_zero]
  after_results_simp

theorem s5_keep_main_arg1 : after (List.take 2 (List.drop 89 (ops (F := F)))) W (Proc.devRef .tc main_arg1) = W (Proc.devRef .tc main_arg1) := by
  simp only [ops, List.take_succ_cons, List.take_zero, List.drop_succ_cons, List.drop_zero]
  after_results_simp

theorem s5_keep_main_arg2 : after (List.take 2 (List.drop 89 (ops (F := F)))) W (Proc.devRef .tc main_arg2) = W (Proc.devRef .tc main_arg2) := by
  simp only [ops, List.take_succ_cons, List.take_zero, List.drop_succ_cons, List.drop_zero]
  after_results_simp

theorem s5_keep_main_arg3 : after (List.take 2 (List.drop 89 (ops (F := F)))) W (Proc.devRef .tc main_arg3) = W (Proc.devRef .tc main_arg3) := by
  simp only [ops, List.take_succ_cons, List.take_zero, List.drop_succ_cons, List.drop_zero]
  after_results_simp

theorem s5_keep_main_arg4 : after (List.take 2 (List.drop 89 (ops (F := F)))) W (Proc.devRef .tc main_arg4) = W (Proc.devRef .tc main_arg4) := by
  simp only [ops, List.take_succ_cons, List.take_zero, List.drop_succ_cons, List.drop_zero]
  after_results_simp

theorem s5_keep_main_arg5 : after (List.take 2 (List.drop 89 (ops (F := F)))) W (Proc.devRef .tc main_arg5) = W (Proc.devRef .tc main_arg5) := by
  simp only [ops, List.take_succ_cons, List.take_zero, List.drop_succ_cons, List.drop_zero]
  after_results_simp

theorem s5_keep_main_arg6 : after (List.take 2 (List.drop 89 (ops (F := F)))) W (Proc.devRef .tc main_arg6) = W (Proc.devRef .tc main_arg6) := by
  simp only [ops, List.take_succ_cons, List.take_zero, List.drop_succ_cons, List.drop_zero]
  after_results_simp

theorem s5_keep_main_arg7 : after (List.take 2 (List.drop 89 (ops (F := F)))) W (Proc.devRef .tc main_arg7) = W (Proc.devRef .tc main_arg7) := by
  simp only [ops, List.take_succ_cons, List.take_zero, List.drop_succ_cons, List.drop_zero]
  after_results_simp

theorem s5_keep_main_arg8 : after (List.take 2 (List.drop 89 (ops (F := F)))) W (Proc.devRef .tc main_arg8) = W (Proc.devRef .tc main_arg8) := by
  simp only [ops, List.take_succ_cons, List.take_zero, List.drop_succ_cons, List.drop_zero]
  after_results_simp

theorem s5_keep_main_arg9 : after (List.take 2 (List.drop 89 (ops (F := F)))) W (Proc.devRef .tc main_arg9) = W (Proc.devRef .tc main_arg9) := by
  simp only [ops, List.take_succ_cons, List.take_zero, List.drop_succ_cons, List.drop_zero]
  after_results_simp

theorem s5_keep_main_arg10 : after (List.take 2 (List.drop 89 (ops (F := F)))) W (Proc.devRef .tc main_arg10) = W (Proc.devRef .tc main_arg10) := by
  simp only [ops, List.take_succ_cons, List.take_zero, List.drop_succ_cons, List.drop_zero]
  after_results_simp

theorem s5_keep_main_arg11 : after (List.take 2 (List.drop 89 (ops (F := F)))) W (Proc.devRef .tc main_arg11) = W (Proc.devRef .tc main_arg11) := by
  simp only [ops, List.take_succ_cons, List.take_zero, List.drop_succ_cons, List.drop_zero]
  after_results_simp

/-! ## Stage 6: the rest of the log-softmax, from the logits and the buffer holding their row maximum -/

theorem softmax_stage (R : (⟨S100000, .f32⟩ : BufTy).Contents (Elt F)) (Z : (⟨S100000x47, .f32⟩ : BufTy).Contents (Elt F)) (hr : W (Proc.devRef .tc main_call3_v0) = R) (hz : W (Proc.devRef .tc main_v67) = Z) :
    after (List.drop 91 (ops (F := F))) W (Proc.devRef .tc main_v68) = softmaxWith R Z := by
  simp only [ops, List.take_succ_cons, List.take_zero, List.drop_succ_cons, List.drop_zero]
  after_results_simp
  rw [hr, hz]
  rfl

theorem s6_keep_main_arg0 : after (List.drop 91 (ops (F := F))) W (Proc.devRef .tc main_arg0) = W (Proc.devRef .tc main_arg0) := by
  simp only [ops, List.take_succ_cons, List.take_zero, List.drop_succ_cons, List.drop_zero]
  after_results_simp

theorem s6_keep_main_arg1 : after (List.drop 91 (ops (F := F))) W (Proc.devRef .tc main_arg1) = W (Proc.devRef .tc main_arg1) := by
  simp only [ops, List.take_succ_cons, List.take_zero, List.drop_succ_cons, List.drop_zero]
  after_results_simp

theorem s6_keep_main_arg2 : after (List.drop 91 (ops (F := F))) W (Proc.devRef .tc main_arg2) = W (Proc.devRef .tc main_arg2) := by
  simp only [ops, List.take_succ_cons, List.take_zero, List.drop_succ_cons, List.drop_zero]
  after_results_simp

theorem s6_keep_main_arg3 : after (List.drop 91 (ops (F := F))) W (Proc.devRef .tc main_arg3) = W (Proc.devRef .tc main_arg3) := by
  simp only [ops, List.take_succ_cons, List.take_zero, List.drop_succ_cons, List.drop_zero]
  after_results_simp

theorem s6_keep_main_arg4 : after (List.drop 91 (ops (F := F))) W (Proc.devRef .tc main_arg4) = W (Proc.devRef .tc main_arg4) := by
  simp only [ops, List.take_succ_cons, List.take_zero, List.drop_succ_cons, List.drop_zero]
  after_results_simp

theorem s6_keep_main_arg5 : after (List.drop 91 (ops (F := F))) W (Proc.devRef .tc main_arg5) = W (Proc.devRef .tc main_arg5) := by
  simp only [ops, List.take_succ_cons, List.take_zero, List.drop_succ_cons, List.drop_zero]
  after_results_simp

theorem s6_keep_main_arg6 : after (List.drop 91 (ops (F := F))) W (Proc.devRef .tc main_arg6) = W (Proc.devRef .tc main_arg6) := by
  simp only [ops, List.take_succ_cons, List.take_zero, List.drop_succ_cons, List.drop_zero]
  after_results_simp

theorem s6_keep_main_arg7 : after (List.drop 91 (ops (F := F))) W (Proc.devRef .tc main_arg7) = W (Proc.devRef .tc main_arg7) := by
  simp only [ops, List.take_succ_cons, List.take_zero, List.drop_succ_cons, List.drop_zero]
  after_results_simp

theorem s6_keep_main_arg8 : after (List.drop 91 (ops (F := F))) W (Proc.devRef .tc main_arg8) = W (Proc.devRef .tc main_arg8) := by
  simp only [ops, List.take_succ_cons, List.take_zero, List.drop_succ_cons, List.drop_zero]
  after_results_simp

theorem s6_keep_main_arg9 : after (List.drop 91 (ops (F := F))) W (Proc.devRef .tc main_arg9) = W (Proc.devRef .tc main_arg9) := by
  simp only [ops, List.take_succ_cons, List.take_zero, List.drop_succ_cons, List.drop_zero]
  after_results_simp

theorem s6_keep_main_arg10 : after (List.drop 91 (ops (F := F))) W (Proc.devRef .tc main_arg10) = W (Proc.devRef .tc main_arg10) := by
  simp only [ops, List.take_succ_cons, List.take_zero, List.drop_succ_cons, List.drop_zero]
  after_results_simp

theorem s6_keep_main_arg11 : after (List.drop 91 (ops (F := F))) W (Proc.devRef .tc main_arg11) = W (Proc.devRef .tc main_arg11) := by
  simp only [ops, List.take_succ_cons, List.take_zero, List.drop_succ_cons, List.drop_zero]
  after_results_simp

end Cert.ReferenceIdeal.Stages

end
-- ==== Proof.RefValue.lean ====
/-
  The reference's run with its result read: every weakly fair execution terminates with the result array at the
  reference's last stage function of the launch contents of the twelve arguments, and the arguments unchanged.

  The run leaves every buffer at the fold of the 104 operations; the fold is taken in the six stages of `RefStages`, each
  stage's result feeding the hypotheses of the next.
-/
import proofs.«132377_j39711267619348_1_alg».proof.Proof.RefStages

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The result buffer after the whole line, from any contents V. -/
theorem result_after (V : Valuation τ sig (Elt F)) :
    after (ops (F := F)) V (Proc.devRef .tc main_v68)
      = val_main_v68 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_cut]
  have n1 : (after (List.take 20 (ops (F := F))) V) (Proc.devRef .tc main_v11) = val_main_v11 (F := F) (V (Proc.devRef .tc main_arg2)) := nrm_stage V
  have n2 : (after (List.take 24 (List.drop 20 (ops (F := F)))) (after (List.take 20 (ops (F := F))) V)) (Proc.devRef .tc main_v11) = val_main_v11 (F := F) (V (Proc.devRef .tc main_arg2)) := (s2_keep_main_v11 (after (List.take 20 (ops (F := F))) V)).trans n1
  have n3 : (after (List.take 24 (List.drop 44 (ops (F := F)))) (after (List.take 24 (List.drop 20 (ops (F := F)))) (after (List.take 20 (ops (F := F))) V))) (Proc.devRef .tc main_v11) = val_main_v11 (F := F) (V (Proc.devRef .tc main_arg2)) := (s3_keep_main_v11 (after (List.take 24 (List.drop 20 (ops (F := F)))) (after (List.take 20 (ops (F := F))) V))).trans n2
  have l1 : (after (List.take 24 (List.drop 20 (ops (F := F)))) (after (List.take 20 (ops (F := F))) V)) (Proc.devRef .tc main_v30) = val_main_v30 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
    hidden0_stage (after (List.take 20 (ops (F := F))) V) (V (Proc.devRef .tc main_arg0)) (V (Proc.devRef .tc main_arg1)) (V (Proc.devRef .tc main_arg2)) (V (Proc.devRef .tc main_arg3)) (V (Proc.devRef .tc main_arg4)) (V (Proc.devRef .tc main_arg5)) (s1_keep_main_arg0 V) (s1_keep_main_arg1 V) (s1_keep_main_arg2 V) (s1_keep_main_arg3 V) (s1_keep_main_arg4 V) (s1_keep_main_arg5 V) n1
  have l2 : (after (List.take 24 (List.drop 44 (ops (F := F)))) (after (List.take 24 (List.drop 20 (ops (F := F)))) (after (List.take 20 (ops (F := F))) V))) (Proc.devRef .tc main_v49) = val_main_v49 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
    hidden1_stage (after (List.take 24 (List.drop 20 (ops (F := F)))) (after (List.take 20 (ops (F := F))) V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) ((s2_keep_main_arg1 (after (List.take 20 (ops (F := F))) V)).trans (s1_keep_main_arg1 V)) ((s2_keep_main_arg2 (after (List.take 20 (ops (F := F))) V)).trans (s1_keep_main_arg2 V)) ((s2_keep_main_arg6 (after (List.take 20 (ops (F := F))) V)).trans (s1_keep_main_arg6 V)) ((s2_keep_main_arg7 (after (List.take 20 (ops (F := F))) V)).trans (s1_keep_main_arg7 V)) ((s2_keep_main_arg8 (after (List.take 20 (ops (F := F))) V)).trans (s1_keep_main_arg8 V)) n2 l1
  have l3 : (after (List.take 21 (List.drop 68 (ops (F := F)))) (after (List.take 24 (List.drop 44 (ops (F := F)))) (after (List.take 24 (List.drop 20 (ops (F := F)))) (after (List.take 20 (ops (F := F))) V)))) (Proc.devRef .tc main_v67) = val_main_v67 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
    logits_stage (after (List.take 24 (List.drop 44 (ops (F := F)))) (after (List.take 24 (List.drop 20 (ops (F := F)))) (after (List.take 20 (ops (F := F))) V))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) ((s3_keep_main_arg1 (after (List.take 24 (List.drop 20 (ops (F := F)))) (after (List.take 20 (ops (F := F))) V))).trans ((s2_keep_main_arg1 (after (List.take 20 (ops (F := F))) V)).trans (s1_keep_main_arg1 V))) ((s3_keep_main_arg2 (after (List.take 24 (List.drop 20 (ops (F := F)))) (after (List.take 20 (ops (F := F))) V))).trans ((s2_keep_main_arg2 (after (List.take 20 (ops (F := F))) V)).trans (s1_keep_main_arg2 V))) ((s3_keep_main_arg9 (after (List.take 24 (List.drop 20 (ops (F := F)))) (after (List.take 20 (ops (F := F))) V))).trans ((s2_keep_main_arg9 (after (List.take 20 (ops (F := F))) V)).trans (s1_keep_main_arg9 V))) ((s3_keep_main_arg10 (after (List.take 24 (List.drop 20 (ops (F := F)))) (after (List.take 20 (ops (F := F))) V))).trans ((s2_keep_main_arg10 (after (List.take 20 (ops (F := F))) V)).trans (s1_keep_main_arg10 V))) ((s3_keep_main_arg11 (after (List.take 24 (List.drop 20 (ops (F := F)))) (after (List.take 20 (ops (F := F))) V))).trans ((s2_keep_main_arg11 (after (List.take 20 (ops (F := F))) V)).trans (s1_keep_main_arg11 V))) n3 l2
  have l4 : (after (List.take 2 (List.drop 89 (ops (F := F)))) (after (List.take 21 (List.drop 68 (ops (F := F)))) (after (List.take 24 (List.drop 44 (ops (F := F)))) (after (List.take 24 (List.drop 20 (ops (F := F)))) (after (List.take 20 (ops (F := F))) V))))) (Proc.devRef .tc main_v67) = val_main_v67 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
    (s5_keep_main_v67 (after (List.take 21 (List.drop 68 (ops (F := F)))) (after (List.take 24 (List.drop 44 (ops (F := F)))) (after (List.take 24 (List.drop 20 (ops (F := F)))) (after (List.take 20 (ops (F := F))) V))))).trans l3
  have t4 := max_stage (after (List.take 21 (List.drop 68 (ops (F := F)))) (after (List.take 24 (List.drop 44 (ops (F := F)))) (after (List.take 24 (List.drop 20 (ops (F := F)))) (after (List.take 20 (ops (F := F))) V)))) _ l3
  exact ((softmax_stage (after (List.take 2 (List.drop 89 (ops (F := F)))) (after (List.take 21 (List.drop 68 (ops (F := F)))) (after (List.take 24 (List.drop 44 (ops (F := F)))) (after (List.take 24 (List.drop 20 (ops (F := F)))) (after (List.take 20 (ops (F := F))) V))))) _ _ t4 l4).trans (Softmax.hostLogSoftmax_eq _).symm).trans
    (Softmax.output_read (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))).symm

/-- The whole line leaves `main_arg0` alone. -/
theorem arg_after_main_arg0 (V : Valuation τ sig (Elt F)) : after (ops (F := F)) V (Proc.devRef .tc main_arg0) = V (Proc.devRef .tc main_arg0) := by
  rw [after_cut]
  exact (s6_keep_main_arg0 (after (List.take 2 (List.drop 89 (ops (F := F)))) (after (List.take 21 (List.drop 68 (ops (F := F)))) (after (List.take 24 (List.drop 44 (ops (F := F)))) (after (List.take 24 (List.drop 20 (ops (F := F)))) (after (List.take 20 (ops (F := F))) V)))))).trans ((s5_keep_main_arg0 (after (List.take 21 (List.drop 68 (ops (F := F)))) (after (List.take 24 (List.drop 44 (ops (F := F)))) (after (List.take 24 (List.drop 20 (ops (F := F)))) (after (List.take 20 (ops (F := F))) V))))).trans ((s4_keep_main_arg0 (after (List.take 24 (List.drop 44 (ops (F := F)))) (after (List.take 24 (List.drop 20 (ops (F := F)))) (after (List.take 20 (ops (F := F))) V)))).trans ((s3_keep_main_arg0 (after (List.take 24 (List.drop 20 (ops (F := F)))) (after (List.take 20 (ops (F := F))) V))).trans ((s2_keep_main_arg0 (after (List.take 20 (ops (F := F))) V)).trans (s1_keep_main_arg0 V)))))

/-- The whole line leaves `main_arg1` alone. -/
theorem arg_after_main_arg1 (V : Valuation τ sig (Elt F)) : after (ops (F := F)) V (Proc.devRef .tc main_arg1) = V (Proc.devRef .tc main_arg1) := by
  rw [after_cut]
  exact (s6_keep_main_arg1 (after (List.take 2 (List.drop 89 (ops (F := F)))) (after (List.take 21 (List.drop 68 (ops (F := F)))) (after (List.take 24 (List.drop 44 (ops (F := F)))) (after (List.take 24 (List.drop 20 (ops (F := F)))) (after (List.take 20 (ops (F := F))) V)))))).trans ((s5_keep_main_arg1 (after (List.take 21 (List.drop 68 (ops (F := F)))) (after (List.take 24 (List.drop 44 (ops (F := F)))) (after (List.take 24 (List.drop 20 (ops (F := F)))) (after (List.take 20 (ops (F := F))) V))))).trans ((s4_keep_main_arg1 (after (List.take 24 (List.drop 44 (ops (F := F)))) (after (List.take 24 (List.drop 20 (ops (F := F)))) (after (List.take 20 (ops (F := F))) V)))).trans ((s3_keep_main_arg1 (after (List.take 24 (List.drop 20 (ops (F := F)))) (after (List.take 20 (ops (F := F))) V))).trans ((s2_keep_main_arg1 (after (List.take 20 (ops (F := F))) V)).trans (s1_keep_main_arg1 V)))))

/-- The whole line leaves `main_arg2` alone. -/
theorem arg_after_main_arg2 (V : Valuation τ sig (Elt F)) : after (ops (F := F)) V (Proc.devRef .tc main_arg2) = V (Proc.devRef .tc main_arg2) := by
  rw [after_cut]
  exact (s6_keep_main_arg2 (after (List.take 2 (List.drop 89 (ops (F := F)))) (after (List.take 21 (List.drop 68 (ops (F := F)))) (after (List.take 24 (List.drop 44 (ops (F := F)))) (after (List.take 24 (List.drop 20 (ops (F := F)))) (after (List.take 20 (ops (F := F))) V)))))).trans ((s5_keep_main_arg2 (after (List.take 21 (List.drop 68 (ops (F := F)))) (after (List.take 24 (List.drop 44 (ops (F := F)))) (after (List.take 24 (List.drop 20 (ops (F := F)))) (after (List.take 20 (ops (F := F))) V))))).trans ((s4_keep_main_arg2 (after (List.take 24 (List.drop 44 (ops (F := F)))) (after (List.take 24 (List.drop 20 (ops (F := F)))) (after (List.take 20 (ops (F := F))) V)))).trans ((s3_keep_main_arg2 (after (List.take 24 (List.drop 20 (ops (F := F)))) (after (List.take 20 (ops (F := F))) V))).trans ((s2_keep_main_arg2 (after (List.take 20 (ops (F := F))) V)).trans (s1_keep_main_arg2 V)))))

/-- The whole line leaves `main_arg3` alone. -/
theorem arg_after_main_arg3 (V : Valuation τ sig (Elt F)) : after (ops (F := F)) V (Proc.devRef .tc main_arg3) = V (Proc.devRef .tc main_arg3) := by
  rw [after_cut]
  exact (s6_keep_main_arg3 (after (List.take 2 (List.drop 89 (ops (F := F)))) (after (List.take 21 (List.drop 68 (ops (F := F)))) (after (List.take 24 (List.drop 44 (ops (F := F)))) (after (List.take 24 (List.drop 20 (ops (F := F)))) (after (List.take 20 (ops (F := F))) V)))))).trans ((s5_keep_main_arg3 (after (List.take 21 (List.drop 68 (ops (F := F)))) (after (List.take 24 (List.drop 44 (ops (F := F)))) (after (List.take 24 (List.drop 20 (ops (F := F)))) (after (List.take 20 (ops (F := F))) V))))).trans ((s4_keep_main_arg3 (after (List.take 24 (List.drop 44 (ops (F := F)))) (after (List.take 24 (List.drop 20 (ops (F := F)))) (after (List.take 20 (ops (F := F))) V)))).trans ((s3_keep_main_arg3 (after (List.take 24 (List.drop 20 (ops (F := F)))) (after (List.take 20 (ops (F := F))) V))).trans ((s2_keep_main_arg3 (after (List.take 20 (ops (F := F))) V)).trans (s1_keep_main_arg3 V)))))

/-- The whole line leaves `main_arg4` alone. -/
theorem arg_after_main_arg4 (V : Valuation τ sig (Elt F)) : after (ops (F := F)) V (Proc.devRef .tc main_arg4) = V (Proc.devRef .tc main_arg4) := by
  rw [after_cut]
  exact (s6_keep_main_arg4 (after (List.take 2 (List.drop 89 (ops (F := F)))) (after (List.take 21 (List.drop 68 (ops (F := F)))) (after (List.take 24 (List.drop 44 (ops (F := F)))) (after (List.take 24 (List.drop 20 (ops (F := F)))) (after (List.take 20 (ops (F := F))) V)))))).trans ((s5_keep_main_arg4 (after (List.take 21 (List.drop 68 (ops (F := F)))) (after (List.take 24 (List.drop 44 (ops (F := F)))) (after (List.take 24 (List.drop 20 (ops (F := F)))) (after (List.take 20 (ops (F := F))) V))))).trans ((s4_keep_main_arg4 (after (List.take 24 (List.drop 44 (ops (F := F)))) (after (List.take 24 (List.drop 20 (ops (F := F)))) (after (List.take 20 (ops (F := F))) V)))).trans ((s3_keep_main_arg4 (after (List.take 24 (List.drop 20 (ops (F := F)))) (after (List.take 20 (ops (F := F))) V))).trans ((s2_keep_main_arg4 (after (List.take 20 (ops (F := F))) V)).trans (s1_keep_main_arg4 V)))))

/-- The whole line leaves `main_arg5` alone. -/
theorem arg_after_main_arg5 (V : Valuation τ sig (Elt F)) : after (ops (F := F)) V (Proc.devRef .tc main_arg5) = V (Proc.devRef .tc main_arg5) := by
  rw [after_cut]
  exact (s6_keep_main_arg5 (after (List.take 2 (List.drop 89 (ops (F := F)))) (after (List.take 21 (List.drop 68 (ops (F := F)))) (after (List.take 24 (List.drop 44 (ops (F := F)))) (after (List.take 24 (List.drop 20 (ops (F := F)))) (after (List.take 20 (ops (F := F))) V)))))).trans ((s5_keep_main_arg5 (after (List.take 21 (List.drop 68 (ops (F := F)))) (after (List.take 24 (List.drop 44 (ops (F := F)))) (after (List.take 24 (List.drop 20 (ops (F := F)))) (after (List.take 20 (ops (F := F))) V))))).trans ((s4_keep_main_arg5 (after (List.take 24 (List.drop 44 (ops (F := F)))) (after (List.take 24 (List.drop 20 (ops (F := F)))) (after (List.take 20 (ops (F := F))) V)))).trans ((s3_keep_main_arg5 (after (List.take 24 (List.drop 20 (ops (F := F)))) (after (List.take 20 (ops (F := F))) V))).trans ((s2_keep_main_arg5 (after (List.take 20 (ops (F := F))) V)).trans (s1_keep_main_arg5 V)))))

/-- The whole line leaves `main_arg6` alone. -/
theorem arg_after_main_arg6 (V : Valuation τ sig (Elt F)) : after (ops (F := F)) V (Proc.devRef .tc main_arg6) = V (Proc.devRef .tc main_arg6) := by
  rw [after_cut]
  exact (s6_keep_main_arg6 (after (List.take 2 (List.drop 89 (ops (F := F)))) (after (List.take 21 (List.drop 68 (ops (F := F)))) (after (List.take 24 (List.drop 44 (ops (F := F)))) (after (List.take 24 (List.drop 20 (ops (F := F)))) (after (List.take 20 (ops (F := F))) V)))))).trans ((s5_keep_main_arg6 (after (List.take 21 (List.drop 68 (ops (F := F)))) (after (List.take 24 (List.drop 44 (ops (F := F)))) (after (List.take 24 (List.drop 20 (ops (F := F)))) (after (List.take 20 (ops (F := F))) V))))).trans ((s4_keep_main_arg6 (after (List.take 24 (List.drop 44 (ops (F := F)))) (after (List.take 24 (List.drop 20 (ops (F := F)))) (after (List.take 20 (ops (F := F))) V)))).trans ((s3_keep_main_arg6 (after (List.take 24 (List.drop 20 (ops (F := F)))) (after (List.take 20 (ops (F := F))) V))).trans ((s2_keep_main_arg6 (after (List.take 20 (ops (F := F))) V)).trans (s1_keep_main_arg6 V)))))

/-- The whole line leaves `main_arg7` alone. -/
theorem arg_after_main_arg7 (V : Valuation τ sig (Elt F)) : after (ops (F := F)) V (Proc.devRef .tc main_arg7) = V (Proc.devRef .tc main_arg7) := by
  rw [after_cut]
  exact (s6_keep_main_arg7 (after (List.take 2 (List.drop 89 (ops (F := F)))) (after (List.take 21 (List.drop 68 (ops (F := F)))) (after (List.take 24 (List.drop 44 (ops (F := F)))) (after (List.take 24 (List.drop 20 (ops (F := F)))) (after (List.take 20 (ops (F := F))) V)))))).trans ((s5_keep_main_arg7 (after (List.take 21 (List.drop 68 (ops (F := F)))) (after (List.take 24 (List.drop 44 (ops (F := F)))) (after (List.take 24 (List.drop 20 (ops (F := F)))) (after (List.take 20 (ops (F := F))) V))))).trans ((s4_keep_main_arg7 (after (List.take 24 (List.drop 44 (ops (F := F)))) (after (List.take 24 (List.drop 20 (ops (F := F)))) (after (List.take 20 (ops (F := F))) V)))).trans ((s3_keep_main_arg7 (after (List.take 24 (List.drop 20 (ops (F := F)))) (after (List.take 20 (ops (F := F))) V))).trans ((s2_keep_main_arg7 (after (List.take 20 (ops (F := F))) V)).trans (s1_keep_main_arg7 V)))))

/-- The whole line leaves `main_arg8` alone. -/
theorem arg_after_main_arg8 (V : Valuation τ sig (Elt F)) : after (ops (F := F)) V (Proc.devRef .tc main_arg8) = V (Proc.devRef .tc main_arg8) := by
  rw [after_cut]
  exact (s6_keep_main_arg8 (after (List.take 2 (List.drop 89 (ops (F := F)))) (after (List.take 21 (List.drop 68 (ops (F := F)))) (after (List.take 24 (List.drop 44 (ops (F := F)))) (after (List.take 24 (List.drop 20 (ops (F := F)))) (after (List.take 20 (ops (F := F))) V)))))).trans ((s5_keep_main_arg8 (after (List.take 21 (List.drop 68 (ops (F := F)))) (after (List.take 24 (List.drop 44 (ops (F := F)))) (after (List.take 24 (List.drop 20 (ops (F := F)))) (after (List.take 20 (ops (F := F))) V))))).trans ((s4_keep_main_arg8 (after (List.take 24 (List.drop 44 (ops (F := F)))) (after (List.take 24 (List.drop 20 (ops (F := F)))) (after (List.take 20 (ops (F := F))) V)))).trans ((s3_keep_main_arg8 (after (List.take 24 (List.drop 20 (ops (F := F)))) (after (List.take 20 (ops (F := F))) V))).trans ((s2_keep_main_arg8 (after (List.take 20 (ops (F := F))) V)).trans (s1_keep_main_arg8 V)))))

/-- The whole line leaves `main_arg9` alone. -/
theorem arg_after_main_arg9 (V : Valuation τ sig (Elt F)) : after (ops (F := F)) V (Proc.devRef .tc main_arg9) = V (Proc.devRef .tc main_arg9) := by
  rw [after_cut]
  exact (s6_keep_main_arg9 (after (List.take 2 (List.drop 89 (ops (F := F)))) (after (List.take 21 (List.drop 68 (ops (F := F)))) (after (List.take 24 (List.drop 44 (ops (F := F)))) (after (List.take 24 (List.drop 20 (ops (F := F)))) (after (List.take 20 (ops (F := F))) V)))))).trans ((s5_keep_main_arg9 (after (List.take 21 (List.drop 68 (ops (F := F)))) (after (List.take 24 (List.drop 44 (ops (F := F)))) (after (List.take 24 (List.drop 20 (ops (F := F)))) (after (List.take 20 (ops (F := F))) V))))).trans ((s4_keep_main_arg9 (after (List.take 24 (List.drop 44 (ops (F := F)))) (after (List.take 24 (List.drop 20 (ops (F := F)))) (after (List.take 20 (ops (F := F))) V)))).trans ((s3_keep_main_arg9 (after (List.take 24 (List.drop 20 (ops (F := F)))) (after (List.take 20 (ops (F := F))) V))).trans ((s2_keep_main_arg9 (after (List.take 20 (ops (F := F))) V)).trans (s1_keep_main_arg9 V)))))

/-- The whole line leaves `main_arg10` alone. -/
theorem arg_after_main_arg10 (V : Valuation τ sig (Elt F)) : after (ops (F := F)) V (Proc.devRef .tc main_arg10) = V (Proc.devRef .tc main_arg10) := by
  rw [after_cut]
  exact (s6_keep_main_arg10 (after (List.take 2 (List.drop 89 (ops (F := F)))) (after (List.take 21 (List.drop 68 (ops (F := F)))) (after (List.take 24 (List.drop 44 (ops (F := F)))) (after (List.take 24 (List.drop 20 (ops (F := F)))) (after (List.take 20 (ops (F := F))) V)))))).trans ((s5_keep_main_arg10 (after (List.take 21 (List.drop 68 (ops (F := F)))) (after (List.take 24 (List.drop 44 (ops (F := F)))) (after (List.take 24 (List.drop 20 (ops (F := F)))) (after (List.take 20 (ops (F := F))) V))))).trans ((s4_keep_main_arg10 (after (List.take 24 (List.drop 44 (ops (F := F)))) (after (List.take 24 (List.drop 20 (ops (F := F)))) (after (List.take 20 (ops (F := F))) V)))).trans ((s3_keep_main_arg10 (after (List.take 24 (List.drop 20 (ops (F := F)))) (after (List.take 20 (ops (F := F))) V))).trans ((s2_keep_main_arg10 (after (List.take 20 (ops (F := F))) V)).trans (s1_keep_main_arg10 V)))))

/-- The whole line leaves `main_arg11` alone. -/
theorem arg_after_main_arg11 (V : Valuation τ sig (Elt F)) : after (ops (F := F)) V (Proc.devRef .tc main_arg11) = V (Proc.devRef .tc main_arg11) := by
  rw [after_cut]
  exact (s6_keep_main_arg11 (after (List.take 2 (List.drop 89 (ops (F := F)))) (after (List.take 21 (List.drop 68 (ops (F := F)))) (after (List.take 24 (List.drop 44 (ops (F := F)))) (after (List.take 24 (List.drop 20 (ops (F := F)))) (after (List.take 20 (ops (F := F))) V)))))).trans ((s5_keep_main_arg11 (after (List.take 21 (List.drop 68 (ops (F := F)))) (after (List.take 24 (List.drop 44 (ops (F := F)))) (after (List.take 24 (List.drop 20 (ops (F := F)))) (after (List.take 20 (ops (F := F))) V))))).trans ((s4_keep_main_arg11 (after (List.take 24 (List.drop 44 (ops (F := F)))) (after (List.take 24 (List.drop 20 (ops (F := F)))) (after (List.take 20 (ops (F := F))) V)))).trans ((s3_keep_main_arg11 (after (List.take 24 (List.drop 20 (ops (F := F)))) (after (List.take 20 (ops (F := F))) V))).trans ((s2_keep_main_arg11 (after (List.take 20 (ops (F := F))) V)).trans (s1_keep_main_arg11 V)))))

/-- THE REFERENCE'S RUN, read. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68)
        = val_main_v68 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v68).trans (result_after (launchContents m c)),
      (h c main_arg0).trans (arg_after_main_arg0 (launchContents m c)),
      (h c main_arg1).trans (arg_after_main_arg1 (launchContents m c)),
      (h c main_arg2).trans (arg_after_main_arg2 (launchContents m c)),
      (h c main_arg3).trans (arg_after_main_arg3 (launchContents m c)),
      (h c main_arg4).trans (arg_after_main_arg4 (launchContents m c)),
      (h c main_arg5).trans (arg_after_main_arg5 (launchContents m c)),
      (h c main_arg6).trans (arg_after_main_arg6 (launchContents m c)),
      (h c main_arg7).trans (arg_after_main_arg7 (launchContents m c)),
      (h c main_arg8).trans (arg_after_main_arg8 (launchContents m c)),
      (h c main_arg9).trans (arg_after_main_arg9 (launchContents m c)),
      (h c main_arg10).trans (arg_after_main_arg10 (launchContents m c)),
      (h c main_arg11).trans (arg_after_main_arg11 (launchContents m c))⟩)
    (run_seq scopedRefs_eq scopedSems_eq defs main (fun _ => ops) main_eq (fun _ => ops_sub) m ρ)

end Cert.ReferenceIdeal.Stages

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibAxisMax.lean ====
/-
  The maximum of a matrix along its second axis, read at an index. Independent of any program.

  A float max-reduction of an [a, b] matrix over axis 1 leaves an [a] vector whose entry p is the fold of max, started
  from the accumulator's value, over k : Fin b of the matrix at (p, k) — a row maximum. The host's reduce with a maximum
  body over the LAST axis of an array of any rank is read the same way by the library's single-axis law; this file gives
  the kernel's side at coordinates.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW MAXIMA: a max-reduction of an [a, b] matrix over axis 1, at row p, is the fold of max from the accumulator's value
    over k of the matrix at (p, k). -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg ((Finset.univ : Finset (Fin b)).fold max (Ideal.ofBits φ acc)) (funext fun k => congrArg src (funext fun c => Fin.ext ?_))
  match c with
  | ⟨0, _⟩ => rfl
  | ⟨1, _⟩ => rfl

end Cert.Lib

end
-- ==== Proof.LibAxisSums.lean ====
/-
  The sum of a matrix along one of its two axes, read at an index. Independent of any program.

  A float add-reduction of an [a, b] matrix over its second axis leaves an [a] vector whose entry p is the sum over
  k : Fin b of the matrix at (p, k) — a row sum; over its first axis it leaves a [b] vector whose entry q is the sum
  over k : Fin a of the matrix at (k, q) — a column sum. Over the extended reals the reduction's neutral start value
  contributes nothing, so each is the plain finite sum.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW SUMS: an add-reduction of an [a, b] matrix over axis 1, at row p, is the sum over k of the matrix at (p, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-- COLUMN SUMS: an add-reduction of an [a, b] matrix over axis 0, at column q, is the sum over k of the matrix at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  match c with
  | ⟨0, _⟩ => rfl
  | ⟨1, _⟩ => rfl

end Cert.Lib

end
-- ==== Proof.LibColumnCast.lean ====
/-
  A vector as a column: an [a] array cast to [a, 1] reads, at (i, 0), the operand at i.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KernelBody.lean ====
/-
  What one grid step of each of the three fused epilogues stores, read at a row p and a column q of its block.

  A step holds 4000 rows of the aggregated features and of the node features, the two weight matrices whole, and
  the bias as a one-row array. Changing the float format is the identity over the extended reals, a matrix product
  into a zero accumulator is the plain sum over the shared axis, and the bias row is repeated down the rows; so the
  stored block is, entry by entry, the layer of `SageSpec` on those 4000 rows: clamped at zero for the two hidden
  layers, the row-wise log-softmax for the last (row maximum and row sum read as a fold and a sum over the 47 columns).
-/
import proofs.«132377_j39711267619348_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«132377_j39711267619348_1_alg».proof.Proof.SageSpec
import proofs.«132377_j39711267619348_1_alg».proof.Proof.LibPlainDot
import proofs.«132377_j39711267619348_1_alg».proof.Proof.LibAxisMax
import proofs.«132377_j39711267619348_1_alg».proof.Proof.LibAxisSums
import proofs.«132377_j39711267619348_1_alg».proof.Proof.LibColumnCast
import proofs.«132377_j39711267619348_1_alg».proof.Proof.LibColumnBroadcast

noncomputable section

namespace Cert.KernelIdeal.Body

open Cert.KernelIdeal Cert.KernelIdeal.Gen Idealize.ShloMosaic Idealize.ShloMosaic.ValueIdx Cert.Sage

/-- The two products of a step, the bias row added: the affine part of the layer on the block's rows. -/
theorem affine_apply {e : ℕ} (wf : DotDims.WF ⟨2, ![4000, 128]⟩ ⟨2, ![128, e]⟩ ⟨2, ![4000, e]⟩ [1] [0] [0] [1] [] [])
    (x0 x1 : FVec Ideal ⟨2, ![4000, 128]⟩ .f32) (x2 x4 : FVec Ideal ⟨2, ![128, e]⟩ .f32) (x3 : FVec Ideal ⟨2, ![1, e]⟩ .f32)
    (hb : (⟨2, ![1, e]⟩ : Shape).Broadcasts ⟨2, ![4000, e]⟩) (p : Fin 4000) (q : Fin e) :
    addf (addf (matmul (Cert.Lib.plainDot 4000 128 e wf) none x0 x2 (constant (F := Ideal) ⟨2, ![4000, e]⟩ .f32 0x00000000#32))
        (matmul (Cert.Lib.plainDot 4000 128 e wf) none x1 x4 (constant (F := Ideal) ⟨2, ![4000, e]⟩ .f32 0x00000000#32)))
      (broadcastTo ⟨2, ![4000, e]⟩ x3 hb) (ix2 p q)
      = lin x0 x1 x2 x4 (fun q => x3 (ix2 (0 : Fin 1) q)) p q := by
  unfold lin
  rw [addf_apply, addf_apply, broadcastTo_1b_ab_apply]
  refine congrArg (· + x3 (ix2 (0 : Fin 1) q)) ?_
  refine congrArg₂ (· + ·) ?_ ?_
  · exact Cert.Lib.matmul_zero_apply wf none x0 x2 p q
  · exact Cert.Lib.matmul_zero_apply wf none x1 x4 p q

theorem dot128_eq : dot_S4000x128_S128x128_S4000x128_1_0_0_1_n_n
    = Cert.Lib.plainDot 4000 128 128 dot_S4000x128_S128x128_S4000x128_1_0_0_1_n_n.wf := rfl

theorem dot47_eq : dot_S4000x128_S128x47_S4000x47_1_0_0_1_n_n
    = Cert.Lib.plainDot 4000 128 47 dot_S4000x128_S128x47_S4000x47_1_0_0_1_n_n.wf := rfl

/-- The first hidden layer's step. -/
theorem pay0_apply (x0 x1 : Vec Ideal S4000x128 .f32) (x2 x4 : Vec Ideal S128x128 .f32) (x3 : Vec Ideal S1x128 .f32)
    (p : Fin 4000) (q : Fin 128) :
    k0_pay1 (F := Ideal) x0 x1 x2 x4 x3 (ix2 p q) = hid x0 x1 x2 x4 (fun q => x3 (ix2 (0 : Fin 1) q)) p q := by
  unfold k0_pay1 hid
  simp only [shapeCast_self, dot128_eq]
  refine congrArg (max · zeroWord) ?_
  exact affine_apply _ x0 x1 x2 x4 x3 _ p q

/-- The second hidden layer's step. -/
theorem pay1_apply (x0 x1 : Vec Ideal S4000x128 .f32) (x2 x4 : Vec Ideal S128x128 .f32) (x3 : Vec Ideal S1x128 .f32)
    (p : Fin 4000) (q : Fin 128) :
    k1_pay1 (F := Ideal) x0 x1 x2 x4 x3 (ix2 p q) = hid x0 x1 x2 x4 (fun q => x3 (ix2 (0 : Fin 1) q)) p q := by
  unfold k1_pay1 hid
  simp only [shapeCast_self, dot128_eq]
  refine congrArg (max · zeroWord) ?_
  exact affine_apply _ x0 x1 x2 x4 x3 _ p q

/-- The log-softmax of a 4000-row block of logits as the last step spells it — the row maximum stood up as a column and
    repeated across the 47 columns, subtracted; the exponentials summed along the row, the logarithm of the sum stood
    up and repeated the same way, subtracted — is the row-wise log-softmax of `SageSpec`. -/
theorem logSoftmax_block (Z : FVec Ideal ⟨2, ![4000, 47]⟩ .f32)
    (hr : (⟨2, ![4000, 47]⟩ : Shape).Reduces [1] ⟨1, ![4000]⟩) (hc : (⟨1, ![4000]⟩ : Shape).ShapeCasts ⟨2, ![4000, 1]⟩)
    (hb : (⟨2, ![4000, 1]⟩ : Shape).Broadcasts ⟨2, ![4000, 47]⟩) (p : Fin 4000) (q : Fin 47) :
    subf (subf Z (broadcastTo ⟨2, ![4000, 47]⟩
          (shapeCast ⟨2, ![4000, 1]⟩ (multiReduction (F := Ideal) .maximumf [1] ⟨1, ![4000]⟩ Z 0xFF800000#32 hr (.inl rfl) rfl) hc) hb))
      (broadcastTo ⟨2, ![4000, 47]⟩
        (log (shapeCast ⟨2, ![4000, 1]⟩ (multiReduction (F := Ideal) .add [1] ⟨1, ![4000]⟩
          (exp (subf Z (broadcastTo ⟨2, ![4000, 47]⟩
            (shapeCast ⟨2, ![4000, 1]⟩ (multiReduction (F := Ideal) .maximumf [1] ⟨1, ![4000]⟩ Z 0xFF800000#32 hr (.inl rfl) rfl) hc) hb)))
          0x00000000#32 hr (.inl rfl) rfl) hc)) hb) (ix2 p q)
      = logSoftmax (fun p q => Z (ix2 p q)) p q := by
  have htop : ∀ (r : Fin 4000) (k : Fin 47), broadcastTo ⟨2, ![4000, 47]⟩
        (shapeCast ⟨2, ![4000, 1]⟩ (multiReduction (F := Ideal) .maximumf [1] ⟨1, ![4000]⟩ Z 0xFF800000#32 hr (.inl rfl) rfl) hc) hb (ix2 r k)
      = rowTop (fun p q => Z (ix2 p q)) r := fun r k => by
    rw [Cert.Lib.broadcastTo_a1_ab_apply, Cert.Lib.shapeCast_a_a1_apply]
    exact Cert.Lib.rowMax_apply Z _ hr _ _ r
  unfold logSoftmax
  rw [subf_apply, subf_apply, htop p q, Cert.Lib.broadcastTo_a1_ab_apply]
  refine congrArg (Z (ix2 p q) - rowTop (fun p q => Z (ix2 p q)) p - ·) ?_
  show Ideal.log (shapeCast ⟨2, ![4000, 1]⟩ (multiReduction (F := Ideal) .add [1] ⟨1, ![4000]⟩ _ 0x00000000#32 hr (.inl rfl) rfl) hc (ix2 p (0 : Fin 1))) = _
  rw [Cert.Lib.shapeCast_a_a1_apply]
  refine congrArg Ideal.log ((Cert.Lib.rowSum_apply _ _ hr _ _ p).trans (Finset.sum_congr rfl fun k _ => ?_))
  show Ideal.exp (Z (ix2 p k) - _) = _
  rw [htop p k]

/-- The output layer's step. -/
theorem pay2_apply (x0 x1 : Vec Ideal S4000x128 .f32) (x2 x4 : Vec Ideal S128x47 .f32) (x3 : Vec Ideal S1x47 .f32)
    (p : Fin 4000) (q : Fin 47) :
    k2_pay1 (F := Ideal) x0 x1 x2 x4 x3 (ix2 p q) = out x0 x1 x2 x4 (fun q => x3 (ix2 (0 : Fin 1) q)) p q := by
  unfold k2_pay1 out
  simp only [shapeCast_self, dot47_eq]
  refine (logSoftmax_block _ _ _ _ p q).trans ?_
  exact congrArg (logSoftmax · p q) (funext fun p => funext fun q => affine_apply _ x0 x1 x2 x4 x3 _ p q)

end Cert.KernelIdeal.Body

end
-- ==== Proof.KernelRegions.lean ====
/-
  From blocks to arrays: what each of the three regions leaves in its result array, as one function of the arrays it
  finds when it is entered.

  Each region walks 25 steps down the 100000 rows, 4000 rows a step; at a step it reads the matching 4000 rows of the
  aggregated features and of the node features, the whole weights and bias, and writes the matching 4000 rows of its
  result. Because a layer's value at a node depends only on that node's row, the block a step writes is the block of
  ONE whole-array function — the layer of `SageSpec` on all rows — and the 25 blocks tile the array. Everything is
  stated at a PARAMETER V, the buffer contents when the region is entered.
-/
import proofs.«132377_j39711267619348_1_alg».proof.Proof.Gen.KernelIdeal.Frame
import proofs.«132377_j39711267619348_1_alg».proof.Proof.KernelBody
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.ShloMosaic.ValueIdx Idealize.SL.Sem Cert.Sage
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the first hidden layer -/

section Region0

/-- Where the windows of region 0 sit at a grid step, decided once over its 25 steps: the two feature windows and the
    result window move together down the rows, one block of 4000 per step, and stay at column block 0; the weights and
    the bias are whole (block 0, 0). -/
theorem where0 : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_5.index t (1 : Fin 2) = 0
    ∧ win0_5.index t (0 : Fin 2) ≤ 24
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every block of 4000 rows is some step's. -/
theorem onto0 : ∀ r : Fin 25, ∃ t : Fin cfg0.N, win0_5.index t = ![r.val, 0] :=
  (by decide +kernel : ∀ r : Fin 25, ∃ t : Fin grid0.N, win0_5.index t = ![r.val, 0])

/-- The array row that row p of step t's block is. -/
def row0 (t : Fin cfg0.N) (p : Fin 4000) : Fin 100000 :=
  ⟨win0_5.index t (0 : Fin 2) * 4000 + p.val, by
    have h := (where0 t).2.2.2.2.2.1
    have hp := p.isLt
    omega⟩

theorem at_result0 (t : Fin cfg0.N) (p : Fin 4000) (q : Fin 128) :
    ((cfg0.win 5).blk t).view.emb (ix2 p q) = ix2 (n0 := 100000) (row0 t p) q := by
  obtain ⟨-, -, -, -, e4, -⟩ := where0 t
  funext a; apply Fin.ext
  match a with
  | ⟨0, _⟩ => show win0_5.index t (0 : Fin 2) * 4000 + 1 * p.val = win0_5.index t (0 : Fin 2) * 4000 + p.val; omega
  | ⟨1, _⟩ => show win0_5.index t (1 : Fin 2) * 128 + 1 * q.val = q.val; omega

theorem at_agg0 (t : Fin cfg0.N) (p : Fin 4000) (j : Fin 128) :
    ((cfg0.win 0).blk t).view.emb (ix2 p j) = ix2 (n0 := 100000) (row0 t p) j := by
  obtain ⟨e0, e1, -⟩ := where0 t
  funext a; apply Fin.ext
  match a with
  | ⟨0, _⟩ => show win0_0.index t (0 : Fin 2) * 4000 + 1 * p.val = win0_5.index t (0 : Fin 2) * 4000 + p.val; omega
  | ⟨1, _⟩ => show win0_0.index t (1 : Fin 2) * 128 + 1 * j.val = j.val; omega

theorem at_feat0 (t : Fin cfg0.N) (p : Fin 4000) (j : Fin 128) :
    ((cfg0.win 1).blk t).view.emb (ix2 p j) = ix2 (n0 := 100000) (row0 t p) j := by
  obtain ⟨-, -, e2, e3, -⟩ := where0 t
  funext a; apply Fin.ext
  match a with
  | ⟨0, _⟩ => show win0_1.index t (0 : Fin 2) * 4000 + 1 * p.val = win0_5.index t (0 : Fin 2) * 4000 + p.val; omega
  | ⟨1, _⟩ => show win0_1.index t (1 : Fin 2) * 128 + 1 * j.val = j.val; omega

theorem at_wl0 (t : Fin cfg0.N) (y : S128x128.Idx) : ((cfg0.win 2).blk t).view.emb y = y := by
  obtain ⟨-, -, -, -, -, -, e6, e7, -⟩ := where0 t
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem at_bias0 (t : Fin cfg0.N) (y : S1x128.Idx) : ((cfg0.win 3).blk t).view.emb y = y := by
  obtain ⟨-, -, -, -, -, -, -, -, e8, e9, -⟩ := where0 t
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem at_wr0 (t : Fin cfg0.N) (y : S128x128.Idx) : ((cfg0.win 4).blk t).view.emb y = y := by
  obtain ⟨-, -, -, -, -, -, -, -, -, -, e10, e11⟩ := where0 t
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- What region 0's result array holds after the region, as one function of the arrays the region finds: the first hidden layer
    of `SageSpec` on all 100000 rows. -/
def layer0 (c : Dev nD) : S100000x128.Idx → EReal :=
  hidden (n := 100000) (d := 128) (e := 128) (V c main_v23) (V c main_arg0) (V c main_arg3) (V c main_arg5)
    (fun q => V c main_v24 (ix2 (0 : Fin 1) q))

/-- WHAT STEP t WRITES BACK is block t of that function. -/
theorem flushed0_eq (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero hz]
  simp only [View.ld_unit_zero (S := S4000x128) hz, View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  rw [View.read_apply, at_result0]
  show k0_pay1 (F := Ideal) (iblk0 V c 0 t) (iblk0 V c 1 t) (iblk0 V c 2 t) (iblk0 V c 4 t) (iblk0 V c 3 t) (ix2 p q)
    = hid (V c main_v23) (V c main_arg0) (V c main_arg3) (V c main_arg5) (fun q => V c main_v24 (ix2 (0 : Fin 1) q)) (row0 t p) q
  refine (Body.pay0_apply (iblk0 V c 0 t) (iblk0 V c 1 t) (iblk0 V c 2 t) (iblk0 V c 4 t) (iblk0 V c 3 t) p q).trans ?_
  refine hid_congr _ _ _ _ _ _ _ _ _ _ p (row0 t p) q (fun j => ?_) (fun j => ?_) ?_ ?_ ?_
  · show V c main_v23 (((cfg0.win 0).blk t).view.emb (ix2 p j)) = _
    rw [at_agg0]
  · show V c main_arg0 (((cfg0.win 1).blk t).view.emb (ix2 p j)) = _
    rw [at_feat0]
  · funext y
    show V c main_arg3 (((cfg0.win 2).blk t).view.emb y) = _
    rw [at_wl0]
  · funext y
    show V c main_arg5 (((cfg0.win 4).blk t).view.emb y) = _
    rw [at_wr0]
  · funext j
    show V c main_v24 (((cfg0.win 3).blk t).view.emb (ix2 (0 : Fin 1) j)) = _
    rw [at_bias0]

/-- An index of the result array is in step t's block iff each coordinate is in the block's range on its axis. -/
theorem mem_blk0 (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v25).slice (win0_5.rect t)).set ↔ _
  rw [View.set_slice_whole, Rect.mem_set_unit]
  exact Iff.rfl

/-- The 25 blocks cover the array: row r lies in block r / 4000. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := onto0 ⟨(i 0).val / 4000, by omega⟩
  have q0 : win0_5.index t (0 : Fin 2) = (i 0).val / 4000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- THE RESULT ARRAY after region 0. -/
theorem final0 (c : Dev nD) : (dat0 V c).arrAt 5 cfg0.N = layer0 V c :=
  (dat0 V c).arrAt_eq_of_cover 5 (layer0 V c) (fun t _ => flushed0_eq V c t) (cover0)

end Region0

/-! ## Region 1: the second hidden layer -/

section Region1

/-- Where the windows of region 1 sit at a grid step, decided once over its 25 steps: the two feature windows and the
    result window move together down the rows, one block of 4000 per step, and stay at column block 0; the weights and
    the bias are whole (block 0, 0). -/
theorem where1 : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_5.index t (1 : Fin 2) = 0
    ∧ win1_5.index t (0 : Fin 2) ≤ 24
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Every block of 4000 rows is some step's. -/
theorem onto1 : ∀ r : Fin 25, ∃ t : Fin cfg1.N, win1_5.index t = ![r.val, 0] :=
  (by decide +kernel : ∀ r : Fin 25, ∃ t : Fin grid1.N, win1_5.index t = ![r.val, 0])

/-- The array row that row p of step t's block is. -/
def row1 (t : Fin cfg1.N) (p : Fin 4000) : Fin 100000 :=
  ⟨win1_5.index t (0 : Fin 2) * 4000 + p.val, by
    have h := (where1 t).2.2.2.2.2.1
    have hp := p.isLt
    omega⟩

theorem at_result1 (t : Fin cfg1.N) (p : Fin 4000) (q : Fin 128) :
    ((cfg1.win 5).blk t).view.emb (ix2 p q) = ix2 (n0 := 100000) (row1 t p) q := by
  obtain ⟨-, -, -, -, e4, -⟩ := where1 t
  funext a; apply Fin.ext
  match a with
  | ⟨0, _⟩ => show win1_5.index t (0 : Fin 2) * 4000 + 1 * p.val = win1_5.index t (0 : Fin 2) * 4000 + p.val; omega
  | ⟨1, _⟩ => show win1_5.index t (1 : Fin 2) * 128 + 1 * q.val = q.val; omega

theorem at_agg1 (t : Fin cfg1.N) (p : Fin 4000) (j : Fin 128) :
    ((cfg1.win 0).blk t).view.emb (ix2 p j) = ix2 (n0 := 100000) (row1 t p) j := by
  obtain ⟨e0, e1, -⟩ := where1 t
  funext a; apply Fin.ext
  match a with
  | ⟨0, _⟩ => show win1_0.index t (0 : Fin 2) * 4000 + 1 * p.val = win1_5.index t (0 : Fin 2) * 4000 + p.val; omega
  | ⟨1, _⟩ => show win1_0.index t (1 : Fin 2) * 128 + 1 * j.val = j.val; omega

theorem at_feat1 (t : Fin cfg1.N) (p : Fin 4000) (j : Fin 128) :
    ((cfg1.win 1).blk t).view.emb (ix2 p j) = ix2 (n0 := 100000) (row1 t p) j := by
  obtain ⟨-, -, e2, e3, -⟩ := where1 t
  funext a; apply Fin.ext
  match a with
  | ⟨0, _⟩ => show win1_1.index t (0 : Fin 2) * 4000 + 1 * p.val = win1_5.index t (0 : Fin 2) * 4000 + p.val; omega
  | ⟨1, _⟩ => show win1_1.index t (1 : Fin 2) * 128 + 1 * j.val = j.val; omega

theorem at_wl1 (t : Fin cfg1.N) (y : S128x128.Idx) : ((cfg1.win 2).blk t).view.emb y = y := by
  obtain ⟨-, -, -, -, -, -, e6, e7, -⟩ := where1 t
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem at_bias1 (t : Fin cfg1.N) (y : S1x128.Idx) : ((cfg1.win 3).blk t).view.emb y = y := by
  obtain ⟨-, -, -, -, -, -, -, -, e8, e9, -⟩ := where1 t
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

theorem at_wr1 (t : Fin cfg1.N) (y : S128x128.Idx) : ((cfg1.win 4).blk t).view.emb y = y := by
  obtain ⟨-, -, -, -, -, -, -, -, -, -, e10, e11⟩ := where1 t
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- What region 1's result array holds after the region, as one function of the arrays the region finds: the second hidden layer
    of `SageSpec` on all 100000 rows. -/
def layer1 (c : Dev nD) : S100000x128.Idx → EReal :=
  hidden (n := 100000) (d := 128) (e := 128) (V c main_v37) (V c main_v25) (V c main_arg6) (V c main_arg8)
    (fun q => V c main_v38 (ix2 (0 : Fin 1) q))

/-- WHAT STEP t WRITES BACK is block t of that function. -/
theorem flushed1_eq (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  rw [View.read_apply, at_result1]
  show k1_pay1 (F := Ideal) (iblk1 V c 0 t) (iblk1 V c 1 t) (iblk1 V c 2 t) (iblk1 V c 4 t) (iblk1 V c 3 t) (ix2 p q)
    = hid (V c main_v37) (V c main_v25) (V c main_arg6) (V c main_arg8) (fun q => V c main_v38 (ix2 (0 : Fin 1) q)) (row1 t p) q
  refine (Body.pay1_apply (iblk1 V c 0 t) (iblk1 V c 1 t) (iblk1 V c 2 t) (iblk1 V c 4 t) (iblk1 V c 3 t) p q).trans ?_
  refine hid_congr _ _ _ _ _ _ _ _ _ _ p (row1 t p) q (fun j => ?_) (fun j => ?_) ?_ ?_ ?_
  · show V c main_v37 (((cfg1.win 0).blk t).view.emb (ix2 p j)) = _
    rw [at_agg1]
  · show V c main_v25 (((cfg1.win 1).blk t).view.emb (ix2 p j)) = _
    rw [at_feat1]
  · funext y
    show V c main_arg6 (((cfg1.win 2).blk t).view.emb y) = _
    rw [at_wl1]
  · funext y
    show V c main_arg8 (((cfg1.win 4).blk t).view.emb y) = _
    rw [at_wr1]
  · funext j
    show V c main_v38 (((cfg1.win 3).blk t).view.emb (ix2 (0 : Fin 1) j)) = _
    rw [at_bias1]

/-- An index of the result array is in step t's block iff each coordinate is in the block's range on its axis. -/
theorem mem_blk1 (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v39).slice (win1_5.rect t)).set ↔ _
  rw [View.set_slice_whole, Rect.mem_set_unit]
  exact Iff.rfl

/-- The 25 blocks cover the array: row r lies in block r / 4000. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := onto1 ⟨(i 0).val / 4000, by omega⟩
  have q0 : win1_5.index t (0 : Fin 2) = (i 0).val / 4000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- THE RESULT ARRAY after region 1. -/
theorem final1 (c : Dev nD) : (dat1 V c).arrAt 5 cfg1.N = layer1 V c :=
  (dat1 V c).arrAt_eq_of_cover 5 (layer1 V c) (fun t _ => flushed1_eq V c t) (cover1)

end Region1

/-! ## Region 2: the output layer -/

section Region2

/-- Where the windows of region 2 sit at a grid step, decided once over its 25 steps: the two feature windows and the
    result window move together down the rows, one block of 4000 per step, and stay at column block 0; the weights and
    the bias are whole (block 0, 0). -/
theorem where2 : ∀ t : Fin cfg2.N, win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_5.index t (1 : Fin 2) = 0
    ∧ win2_5.index t (0 : Fin 2) ≤ 24
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Every block of 4000 rows is some step's. -/
theorem onto2 : ∀ r : Fin 25, ∃ t : Fin cfg2.N, win2_5.index t = ![r.val, 0] :=
  (by decide +kernel : ∀ r : Fin 25, ∃ t : Fin grid2.N, win2_5.index t = ![r.val, 0])

/-- The array row that row p of step t's block is. -/
def row2 (t : Fin cfg2.N) (p : Fin 4000) : Fin 100000 :=
  ⟨win2_5.index t (0 : Fin 2) * 4000 + p.val, by
    have h := (where2 t).2.2.2.2.2.1
    have hp := p.isLt
    omega⟩

theorem at_result2 (t : Fin cfg2.N) (p : Fin 4000) (q : Fin 47) :
    ((cfg2.win 5).blk t).view.emb (ix2 p q) = ix2 (n0 := 100000) (row2 t p) q := by
  obtain ⟨-, -, -, -, e4, -⟩ := where2 t
  funext a; apply Fin.ext
  match a with
  | ⟨0, _⟩ => show win2_5.index t (0 : Fin 2) * 4000 + 1 * p.val = win2_5.index t (0 : Fin 2) * 4000 + p.val; omega
  | ⟨1, _⟩ => show win2_5.index t (1 : Fin 2) * 47 + 1 * q.val = q.val; omega

theorem at_agg2 (t : Fin cfg2.N) (p : Fin 4000) (j : Fin 128) :
    ((cfg2.win 0).blk t).view.emb (ix2 p j) = ix2 (n0 := 100000) (row2 t p) j := by
  obtain ⟨e0, e1, -⟩ := where2 t
  funext a; apply Fin.ext
  match a with
  | ⟨0, _⟩ => show win2_0.index t (0 : Fin 2) * 4000 + 1 * p.val = win2_5.index t (0 : Fin 2) * 4000 + p.val; omega
  | ⟨1, _⟩ => show win2_0.index t (1 : Fin 2) * 128 + 1 * j.val = j.val; omega

theorem at_feat2 (t : Fin cfg2.N) (p : Fin 4000) (j : Fin 128) :
    ((cfg2.win 1).blk t).view.emb (ix2 p j) = ix2 (n0 := 100000) (row2 t p) j := by
  obtain ⟨-, -, e2, e3, -⟩ := where2 t
  funext a; apply Fin.ext
  match a with
  | ⟨0, _⟩ => show win2_1.index t (0 : Fin 2) * 4000 + 1 * p.val = win2_5.index t (0 : Fin 2) * 4000 + p.val; omega
  | ⟨1, _⟩ => show win2_1.index t (1 : Fin 2) * 128 + 1 * j.val = j.val; omega

theorem at_wl2 (t : Fin cfg2.N) (y : S128x47.Idx) : ((cfg2.win 2).blk t).view.emb y = y := by
  obtain ⟨-, -, -, -, -, -, e6, e7, -⟩ := where2 t
  funext a; apply Fin.ext
  match a with
  | ⟨0, _⟩ => show win2_2.index t (0 : Fin 2) * 128 + 1 * (y 0).val = (y 0).val; omega
  | ⟨1, _⟩ => show win2_2.index t (1 : Fin 2) * 47 + 1 * (y 1).val = (y 1).val; omega

theorem at_bias2 (t : Fin cfg2.N) (y : S1x47.Idx) : ((cfg2.win 3).blk t).view.emb y = y := by
  obtain ⟨-, -, -, -, -, -, -, -, e8, e9, -⟩ := where2 t
  funext a; apply Fin.ext
  match a with
  | ⟨0, _⟩ => show win2_3.index t (0 : Fin 2) * 1 + 1 * (y 0).val = (y 0).val; omega
  | ⟨1, _⟩ => show win2_3.index t (1 : Fin 2) * 47 + 1 * (y 1).val = (y 1).val; omega

theorem at_wr2 (t : Fin cfg2.N) (y : S128x47.Idx) : ((cfg2.win 4).blk t).view.emb y = y := by
  obtain ⟨-, -, -, -, -, -, -, -, -, -, e10, e11⟩ := where2 t
  funext a; apply Fin.ext
  match a with
  | ⟨0, _⟩ => show win2_4.index t (0 : Fin 2) * 128 + 1 * (y 0).val = (y 0).val; omega
  | ⟨1, _⟩ => show win2_4.index t (1 : Fin 2) * 47 + 1 * (y 1).val = (y 1).val; omega

/-- What region 2's result array holds after the region, as one function of the arrays the region finds: the output layer
    of `SageSpec` on all 100000 rows. -/
def layer2 (c : Dev nD) : S100000x47.Idx → EReal :=
  output (n := 100000) (d := 128) (e := 47) (V c main_v51) (V c main_v39) (V c main_arg9) (V c main_arg11)
    (fun q => V c main_v52 (ix2 (0 : Fin 1) q))

/-- WHAT STEP t WRITES BACK is block t of that function. -/
theorem flushed2_eq (c : Dev nD) (t : Fin cfg2.N) :
    (dat2 V c).flushed 5 t = ((cfg2.win 5).blk t).view.read (Elt Ideal) (layer2 V c) := by
  show (cfg2.win 5).cut (grid2.coords t) ((dat2 V c).after 5 t) = _
  rw [after2_5]
  unfold out2_5
  rw [View.canon_unit_zero hz]
  simp only [View.ld_unit_zero (S := S4000x128) hz, View.ld_unit_zero (S := S128x47) hz, View.ld_unit_zero (S := S1x47) hz]
  funext j
  obtain ⟨p, q, rfl⟩ : ∃ (p : Fin 4000) (q : Fin 47), j = ix2 p q := ⟨j 0, j 1, eq_ix2 j⟩
  rw [View.read_apply, at_result2]
  show k2_pay1 (F := Ideal) (iblk2 V c 0 t) (iblk2 V c 1 t) (iblk2 V c 2 t) (iblk2 V c 4 t) (iblk2 V c 3 t) (ix2 p q)
    = out (V c main_v51) (V c main_v39) (V c main_arg9) (V c main_arg11) (fun q => V c main_v52 (ix2 (0 : Fin 1) q)) (row2 t p) q
  refine (Body.pay2_apply (iblk2 V c 0 t) (iblk2 V c 1 t) (iblk2 V c 2 t) (iblk2 V c 4 t) (iblk2 V c 3 t) p q).trans ?_
  refine out_congr _ _ _ _ _ _ _ _ _ _ p (row2 t p) q (fun j => ?_) (fun j => ?_) ?_ ?_ ?_
  · show V c main_v51 (((cfg2.win 0).blk t).view.emb (ix2 p j)) = _
    rw [at_agg2]
  · show V c main_v39 (((cfg2.win 1).blk t).view.emb (ix2 p j)) = _
    rw [at_feat2]
  · funext y
    show V c main_arg9 (((cfg2.win 2).blk t).view.emb y) = _
    rw [at_wl2]
  · funext y
    show V c main_arg11 (((cfg2.win 4).blk t).view.emb y) = _
    rw [at_wr2]
  · funext j
    show V c main_v52 (((cfg2.win 3).blk t).view.emb (ix2 (0 : Fin 1) j)) = _
    rw [at_bias2]

/-- An index of the result array is in step t's block iff each coordinate is in the block's range on its axis. -/
theorem mem_blk2 (t : Fin cfg2.N) (i : S100000x47.Idx) :
    i ∈ ((cfg2.win 5).blk t).view.set ↔ ∀ a : Fin 2, win2_5.index t a * S4000x47.size a ≤ (i a).val ∧ (i a).val < win2_5.index t a * S4000x47.size a + S4000x47.size a := by
  show i ∈ ((View.whole main_v53).slice (win2_5.rect t)).set ↔ _
  rw [View.set_slice_whole, Rect.mem_set_unit]
  exact Iff.rfl

/-- The 25 blocks cover the array: row r lies in block r / 4000. -/
theorem cover2 (i : S100000x47.Idx) : ∃ t : Fin cfg2.N, (cfg2.win 5).flush t = true ∧ i ∈ ((cfg2.win 5).blk t).view.set := by
  have hi0 : (i 0).val < 100000 := (i 0).isLt
  have hi1 : (i 1).val < 47 := (i 1).isLt
  obtain ⟨t, ht⟩ := onto2 ⟨(i 0).val / 4000, by omega⟩
  have q0 : win2_5.index t (0 : Fin 2) = (i 0).val / 4000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 47 ≤ (i 1).val ∧ (i 1).val < win2_5.index t (1 : Fin 2) * 47 + 47; omega

/-- THE RESULT ARRAY after region 2. -/
theorem final2 (c : Dev nD) : (dat2 V c).arrAt 5 cfg2.N = layer2 V c :=
  (dat2 V c).arrAt_eq_of_cover 5 (layer2 V c) (fun t _ => flushed2_eq V c t) (cover2)

end Region2

end Cert.KernelIdeal.Regions

end
-- ==== Proof.Graph.lean ====
/-
  The graph side of the network, which the two programs share word for word: the in-degree of every node, the
  normaliser 1/max(deg, 1) (0 for a node without incoming edges), and the mean aggregation of a feature array over
  incoming edges — take the source rows, add them up at the destinations, scale each row. Each program prints these
  with its own copies of the gather and scatter dimension records; the records have the same fields, so the two
  spellings are one function. Nothing here reads a gather or a scatter at an index: the two programs apply the same
  operation to the same arrays, and that is all the comparison needs.
-/
import proofs.«132377_j39711267619348_1_alg».proof.Proof.Gen.KernelIdeal
import proofs.«132377_j39711267619348_1_alg».proof.Proof.Gen.ReferenceIdeal

noncomputable section

namespace Cert.KernelIdeal.Graph

open Cert.KernelIdeal Cert.KernelIdeal.Gen Idealize.ShloMosaic

variable {F : FTy → Type} [FloatOps F]

/-- How many edges end at each node: ones accumulated at the destination indices. -/
def deg (dst : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

/-- The per-node normaliser, a column: 1 / max(deg, 1) where a node has an incoming edge, 0 elsewhere. -/
def nrm (dst : (⟨S1600000, .i32⟩ : BufTy).Contents (Elt F)) : (⟨S100000x1, .f32⟩ : BufTy).Contents (Elt F) :=
  broadcastInDim S100000x1 ![0] bcast_S100000_S100000x1_0
    (select (cmpf (F := F) .ogt (deg dst) (broadcastInDim S100000 ![] bcast_S_S100000 (constant S_ .f32 0x00000000#32)))
      (Host.divf (broadcastInDim S100000 ![] bcast_S_S100000 (constant S_ .f32 0x3F800000#32))
        (maximumf (deg dst) (broadcastInDim S100000 ![] bcast_S_S100000 (constant S_ .f32 0x3F800000#32))))
      (broadcastInDim S100000 ![] bcast_S_S100000 (id (constant S_ .f32 0x00000000#32))))

/-- The mean over incoming edges: the rows of h taken at the (wrapped) source indices, accumulated at the destination
    indices into zeros, each row scaled by its node's normaliser. -/
def agg (h : (⟨S100000x128, .f32⟩ : BufTy).Contents (Elt F)) (src dst : (⟨S1600000, .i32⟩ : BufTy).Contents (Elt F))
    (w : (⟨S100000x1, .f32⟩ : BufTy).Contents (Elt F)) : (⟨S100000x128, .f32⟩ : BufTy).Contents (Elt F) :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1 w)

end Cert.KernelIdeal.Graph

namespace Cert.ReferenceIdeal.Graph

open Cert.ReferenceIdeal Cert.ReferenceIdeal.Gen Idealize.ShloMosaic

variable {F : FTy → Type} [FloatOps F]

/-- How many edges end at each node: ones accumulated at the destination indices. -/
def deg (dst : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

/-- The per-node normaliser, a column: 1 / max(deg, 1) where a node has an incoming edge, 0 elsewhere. -/
def nrm (dst : (⟨S1600000, .i32⟩ : BufTy).Contents (Elt F)) : (⟨S100000x1, .f32⟩ : BufTy).Contents (Elt F) :=
  broadcastInDim S100000x1 ![0] bcast_S100000_S100000x1_0
    (select (cmpf (F := F) .ogt (deg dst) (broadcastInDim S100000 ![] bcast_S_S100000 (constant S_ .f32 0x00000000#32)))
      (Host.divf (broadcastInDim S100000 ![] bcast_S_S100000 (constant S_ .f32 0x3F800000#32))
        (maximumf (deg dst) (broadcastInDim S100000 ![] bcast_S_S100000 (constant S_ .f32 0x3F800000#32))))
      (broadcastInDim S100000 ![] bcast_S_S100000 (id (constant S_ .f32 0x00000000#32))))

/-- The mean over incoming edges: the rows of h taken at the (wrapped) source indices, accumulated at the destination
    indices into zeros, each row scaled by its node's normaliser. -/
def agg (h : (⟨S100000x128, .f32⟩ : BufTy).Contents (Elt F)) (src dst : (⟨S1600000, .i32⟩ : BufTy).Contents (Elt F))
    (w : (⟨S100000x1, .f32⟩ : BufTy).Contents (Elt F)) : (⟨S100000x128, .f32⟩ : BufTy).Contents (Elt F) :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1 w)

end Cert.ReferenceIdeal.Graph

namespace Cert.Sage

open Idealize.ShloMosaic

variable {F : FTy → Type} [FloatOps F]

/-- The two programs' dimension records for counting edges, for taking rows and for adding rows up have the same fields. -/
theorem count_dims : Cert.KernelIdeal.scatter_S100000_S1600000x1_S1600000_n_0_0_1 = Cert.ReferenceIdeal.scatter_S100000_S1600000x1_S1600000_n_0_0_1 := rfl
theorem take_dims : Cert.KernelIdeal.gather_S100000x128_S1600000x1_S1600000x128_1_0_n_n_0_1_1128 = Cert.ReferenceIdeal.gather_S100000x128_S1600000x1_S1600000x128_1_0_n_n_0_1_1128 := rfl
theorem add_dims : Cert.KernelIdeal.scatter_S100000x128_S1600000x1_S1600000x128_1_0_0_1 = Cert.ReferenceIdeal.scatter_S100000x128_S1600000x1_S1600000x128_1_0_0_1 := rfl

/-- So the two spellings of the normaliser are one function … -/
theorem nrm_eq (dst : (⟨Cert.KernelIdeal.S1600000, .i32⟩ : BufTy).Contents (Elt F)) :
    Cert.KernelIdeal.Graph.nrm (F := F) dst = Cert.ReferenceIdeal.Graph.nrm (F := F) dst := by
  unfold Cert.KernelIdeal.Graph.nrm Cert.ReferenceIdeal.Graph.nrm Cert.KernelIdeal.Graph.deg Cert.ReferenceIdeal.Graph.deg
  rw [count_dims]

/-- … and so are the two spellings of the aggregation. -/
theorem agg_eq (h : (⟨Cert.KernelIdeal.S100000x128, .f32⟩ : BufTy).Contents (Elt F))
    (src dst : (⟨Cert.KernelIdeal.S1600000, .i32⟩ : BufTy).Contents (Elt F))
    (w : (⟨Cert.KernelIdeal.S100000x1, .f32⟩ : BufTy).Contents (Elt F)) :
    Cert.KernelIdeal.Graph.agg (F := F) h src dst w = Cert.ReferenceIdeal.Graph.agg (F := F) h src dst w := by
  unfold Cert.KernelIdeal.Graph.agg Cert.ReferenceIdeal.Graph.agg
  rw [add_dims, take_dims]

end Cert.Sage

end
-- ==== Proof.KernelWalk.lean ====
/-
  The host side of the kernel's program, stretch by stretch: what each line of host operations between the regions
  leaves in the buffers the next region reads, as a function of what it found. Before each region the program
  aggregates the current features (`Graph.agg`), and reshapes that layer's bias to one row; the in-degree normaliser is
  computed once, before the first region, and read again before the second and third. Everything else a stretch leaves
  as it found it. Each statement is for ANY buffer contents V at the stretch's start.
-/
import proofs.«132377_j39711267619348_1_alg».proof.Proof.Gen.KernelIdeal.Launch
import proofs.«132377_j39711267619348_1_alg».proof.Proof.Graph
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.ShloMosaic.StableHlo Idealize.SL.Sem

variable {F : FTy → Type} [FloatOps F]

variable (V : Valuation τ sig (Elt F))

/-! ## Before region 0: three stretches (the in-degree, the `where` that guards the division, the first aggregation) -/

theorem pre0_nrm : after hostOps0_2 (after hostOps0_1 (after hostOps0 V)) (Proc.devRef .tc main_v11) = Graph.nrm (F := F) (V (Proc.devRef .tc main_arg2)) := by
  after_results
  rfl

set_option maxHeartbeats 2000000 in
theorem pre0_agg : after hostOps0_2 (after hostOps0_1 (after hostOps0 V)) (Proc.devRef .tc main_v23)
    = Graph.agg (F := F) (V (Proc.devRef .tc main_arg0)) (V (Proc.devRef .tc main_arg1)) (V (Proc.devRef .tc main_arg2)) (Graph.nrm (F := F) (V (Proc.devRef .tc main_arg2))) := by
  after_results_simp
  rfl

theorem pre0_bias : after hostOps0_2 (after hostOps0_1 (after hostOps0 V)) (Proc.devRef .tc main_v24)
    = shapeCast S1x128 (V (Proc.devRef .tc main_arg4)) shapeCasts_S128_S1x128 := by
  after_results
  rfl

theorem pre0_keep_main_arg0 : after hostOps0_2 (after hostOps0_1 (after hostOps0 V)) (Proc.devRef .tc main_arg0) = V (Proc.devRef .tc main_arg0) := by
  after_results

theorem pre0_keep_main_arg1 : after hostOps0_2 (after hostOps0_1 (after hostOps0 V)) (Proc.devRef .tc main_arg1) = V (Proc.devRef .tc main_arg1) := by
  after_results

theorem pre0_keep_main_arg2 : after hostOps0_2 (after hostOps0_1 (after hostOps0 V)) (Proc.devRef .tc main_arg2) = V (Proc.devRef .tc main_arg2) := by
  after_results

theorem pre0_keep_main_arg3 : after hostOps0_2 (after hostOps0_1 (after hostOps0 V)) (Proc.devRef .tc main_arg3) = V (Proc.devRef .tc main_arg3) := by
  after_results

theorem pre0_keep_main_arg4 : after hostOps0_2 (after hostOps0_1 (after hostOps0 V)) (Proc.devRef .tc main_arg4) = V (Proc.devRef .tc main_arg4) := by
  after_results

theorem pre0_keep_main_arg5 : after hostOps0_2 (after hostOps0_1 (after hostOps0 V)) (Proc.devRef .tc main_arg5) = V (Proc.devRef .tc main_arg5) := by
  after_results

theorem pre0_keep_main_arg6 : after hostOps0_2 (after hostOps0_1 (after hostOps0 V)) (Proc.devRef .tc main_arg6) = V (Proc.devRef .tc main_arg6) := by
  after_results

theorem pre0_keep_main_arg7 : after hostOps0_2 (after hostOps0_1 (after hostOps0 V)) (Proc.devRef .tc main_arg7) = V (Proc.devRef .tc main_arg7) := by
  after_results

theorem pre0_keep_main_arg8 : after hostOps0_2 (after hostOps0_1 (after hostOps0 V)) (Proc.devRef .tc main_arg8) = V (Proc.devRef .tc main_arg8) := by
  after_results

theorem pre0_keep_main_arg9 : after hostOps0_2 (after hostOps0_1 (after hostOps0 V)) (Proc.devRef .tc main_arg9) = V (Proc.devRef .tc main_arg9) := by
  after_results

theorem pre0_keep_main_arg10 : after hostOps0_2 (after hostOps0_1 (after hostOps0 V)) (Proc.devRef .tc main_arg10) = V (Proc.devRef .tc main_arg10) := by
  after_results

theorem pre0_keep_main_arg11 : after hostOps0_2 (after hostOps0_1 (after hostOps0 V)) (Proc.devRef .tc main_arg11) = V (Proc.devRef .tc main_arg11) := by
  after_results

/-! ## Between regions 0 and 1 -/

set_option maxHeartbeats 2000000 in
theorem mid1_agg : after hostOps1 V (Proc.devRef .tc main_v37)
    = Graph.agg (F := F) (V (Proc.devRef .tc main_v25)) (V (Proc.devRef .tc main_arg1)) (V (Proc.devRef .tc main_arg2)) (V (Proc.devRef .tc main_v11)) := by
  after_results_simp
  rfl

theorem mid1_bias : after hostOps1 V (Proc.devRef .tc main_v38)
    = shapeCast S1x128 (V (Proc.devRef .tc main_arg7)) shapeCasts_S128_S1x128 := by
  after_results
  rfl

theorem mid1_keep_main_v25 : after hostOps1 V (Proc.devRef .tc main_v25) = V (Proc.devRef .tc main_v25) := by
  after_results

theorem mid1_keep_main_v11 : after hostOps1 V (Proc.devRef .tc main_v11) = V (Proc.devRef .tc main_v11) := by
  after_results

theorem mid1_keep_main_arg1 : after hostOps1 V (Proc.devRef .tc main_arg1) = V (Proc.devRef .tc main_arg1) := by
  after_results

theorem mid1_keep_main_arg2 : after hostOps1 V (Proc.devRef .tc main_arg2) = V (Proc.devRef .tc main_arg2) := by
  after_results

theorem mid1_keep_main_arg6 : after hostOps1 V (Proc.devRef .tc main_arg6) = V (Proc.devRef .tc main_arg6) := by
  after_results

theorem mid1_keep_main_arg8 : after hostOps1 V (Proc.devRef .tc main_arg8) = V (Proc.devRef .tc main_arg8) := by
  after_results

theorem mid1_keep_main_arg9 : after hostOps1 V (Proc.devRef .tc main_arg9) = V (Proc.devRef .tc main_arg9) := by
  after_results

theorem mid1_keep_main_arg10 : after hostOps1 V (Proc.devRef .tc main_arg10) = V (Proc.devRef .tc main_arg10) := by
  after_results

theorem mid1_keep_main_arg11 : after hostOps1 V (Proc.devRef .tc main_arg11) = V (Proc.devRef .tc main_arg11) := by
  after_results

/-! ## Between regions 1 and 2 -/

set_option maxHeartbeats 2000000 in
theorem mid2_agg : after hostOps2 V (Proc.devRef .tc main_v51)
    = Graph.agg (F := F) (V (Proc.devRef .tc main_v39)) (V (Proc.devRef .tc main_arg1)) (V (Proc.devRef .tc main_arg2)) (V (Proc.devRef .tc main_v11)) := by
  after_results_simp
  rfl

theorem mid2_bias : after hostOps2 V (Proc.devRef .tc main_v52)
    = shapeCast S1x47 (V (Proc.devRef .tc main_arg10)) shapeCasts_S47_S1x47 := by
  after_results
  rfl

theorem mid2_keep_main_v39 : after hostOps2 V (Proc.devRef .tc main_v39) = V (Proc.devRef .tc main_v39) := by
  after_results

theorem mid2_keep_main_arg9 : after hostOps2 V (Proc.devRef .tc main_arg9) = V (Proc.devRef .tc main_arg9) := by
  after_results

theorem mid2_keep_main_arg11 : after hostOps2 V (Proc.devRef .tc main_arg11) = V (Proc.devRef .tc main_arg11) := by
  after_results

end Cert.KernelIdeal.Walk

end
-- ==== Proof.KernelValue.lean ====
/-
  The kernel's program, end to end: the result array at the last segment boundary is the three-layer network of
  `SageSpec` and `Graph` applied to the launch contents of the twelve arguments.

  The walk goes forward through the eight segments. Before region 0 the host lines leave the normaliser, the first
  aggregation and the first bias row (`KernelWalk`); region 0 leaves the first hidden layer (`KernelRegions`); the
  next host line aggregates it, region 1 leaves the second hidden layer; the last host line aggregates that, and region 2
  leaves the log-softmax output. A region leaves every buffer that is not one of its arrays alone, and a host line leaves
  alone what it does not write, so the arguments and the normaliser are read at each boundary as they were first left.
-/
import proofs.«132377_j39711267619348_1_alg».proof.Proof.KernelRegions
import proofs.«132377_j39711267619348_1_alg».proof.Proof.KernelWalk
import Idealize.ShloMosaic.Lib.ValueLayout

set_option maxRecDepth 16384

noncomputable section

namespace Cert.KernelIdeal.Value

open Cert.KernelIdeal Cert.KernelIdeal.Gen Idealize.ShloMosaic Idealize.ShloMosaic.TcCoe Idealize.ShloMosaic.ValueIdx
open Idealize.ShloMosaic.StableHlo Idealize.SL.Sem Cert.Sage

variable (m : (ℓ : Loc nD τ sig) → Buf (Elt Ideal) ℓ) (ρ : Dev nD → PrngReg) (c : Dev nD)

/-- The normaliser column of this run. -/
def nrmOf : (⟨S100000x1, .f32⟩ : BufTy).Contents (Elt Ideal) := Graph.nrm (F := Ideal) (m ((c : Thread nD τ).loc main_arg2))

/-- The aggregation of this run's graph, as a function of the features. -/
def aggOf (h : (⟨S100000x128, .f32⟩ : BufTy).Contents (Elt Ideal)) : (⟨S100000x128, .f32⟩ : BufTy).Contents (Elt Ideal) :=
  Graph.agg (F := Ideal) h (m ((c : Thread nD τ).loc main_arg1)) (m ((c : Thread nD τ).loc main_arg2)) (nrmOf m c)

/-- The first hidden layer of this run. -/
def h1 : (⟨S100000x128, .f32⟩ : BufTy).Contents (Elt Ideal) :=
  hidden (n := 100000) (d := 128) (e := 128) (aggOf m c (m ((c : Thread nD τ).loc main_arg0))) (m ((c : Thread nD τ).loc main_arg0)) (m ((c : Thread nD τ).loc main_arg3)) (m ((c : Thread nD τ).loc main_arg5)) (fun q => (m ((c : Thread nD τ).loc main_arg4)) (ix1 q))

/-- The second hidden layer of this run. -/
def h2 : (⟨S100000x128, .f32⟩ : BufTy).Contents (Elt Ideal) :=
  hidden (n := 100000) (d := 128) (e := 128) (aggOf m c (h1 m c)) (h1 m c) (m ((c : Thread nD τ).loc main_arg6)) (m ((c : Thread nD τ).loc main_arg8)) (fun q => (m ((c : Thread nD τ).loc main_arg7)) (ix1 q))

/-- The output of this run. -/
def outOf : (⟨S100000x47, .f32⟩ : BufTy).Contents (Elt Ideal) :=
  output (n := 100000) (d := 128) (e := 47) (aggOf m c (h2 m c)) (h2 m c) (m ((c : Thread nD τ).loc main_arg9)) (m ((c : Thread nD τ).loc main_arg11)) (fun q => (m ((c : Thread nD τ).loc main_arg10)) (ix1 q))

/-! ## At the entry of region 0 -/

theorem e0_arg0 : V3 m ρ c main_arg0 = (m ((c : Thread nD τ).loc main_arg0)) := Walk.pre0_keep_main_arg0 (W0 m ρ c)
theorem e0_arg1 : V3 m ρ c main_arg1 = (m ((c : Thread nD τ).loc main_arg1)) := Walk.pre0_keep_main_arg1 (W0 m ρ c)
theorem e0_arg2 : V3 m ρ c main_arg2 = (m ((c : Thread nD τ).loc main_arg2)) := Walk.pre0_keep_main_arg2 (W0 m ρ c)
theorem e0_arg3 : V3 m ρ c main_arg3 = (m ((c : Thread nD τ).loc main_arg3)) := Walk.pre0_keep_main_arg3 (W0 m ρ c)
theorem e0_arg5 : V3 m ρ c main_arg5 = (m ((c : Thread nD τ).loc main_arg5)) := Walk.pre0_keep_main_arg5 (W0 m ρ c)
theorem e0_arg6 : V3 m ρ c main_arg6 = (m ((c : Thread nD τ).loc main_arg6)) := Walk.pre0_keep_main_arg6 (W0 m ρ c)
theorem e0_arg7 : V3 m ρ c main_arg7 = (m ((c : Thread nD τ).loc main_arg7)) := Walk.pre0_keep_main_arg7 (W0 m ρ c)
theorem e0_arg8 : V3 m ρ c main_arg8 = (m ((c : Thread nD τ).loc main_arg8)) := Walk.pre0_keep_main_arg8 (W0 m ρ c)
theorem e0_arg9 : V3 m ρ c main_arg9 = (m ((c : Thread nD τ).loc main_arg9)) := Walk.pre0_keep_main_arg9 (W0 m ρ c)
theorem e0_arg10 : V3 m ρ c main_arg10 = (m ((c : Thread nD τ).loc main_arg10)) := Walk.pre0_keep_main_arg10 (W0 m ρ c)
theorem e0_arg11 : V3 m ρ c main_arg11 = (m ((c : Thread nD τ).loc main_arg11)) := Walk.pre0_keep_main_arg11 (W0 m ρ c)
theorem e0_nrm : V3 m ρ c main_v11 = nrmOf m c := Walk.pre0_nrm (W0 m ρ c)
theorem e0_agg : V3 m ρ c main_v23 = aggOf m c (m ((c : Thread nD τ).loc main_arg0)) := Walk.pre0_agg (W0 m ρ c)
theorem e0_bias : (fun q : Fin 128 => V3 m ρ c main_v24 (ix2 (0 : Fin 1) q)) = fun q => (m ((c : Thread nD τ).loc main_arg4)) (ix1 q) := by
  funext q
  rw [show V3 m ρ c main_v24 = shapeCast S1x128 (m ((c : Thread nD τ).loc main_arg4)) shapeCasts_S128_S1x128 from Walk.pre0_bias (W0 m ρ c)]
  exact shapeCast_a_1a_apply _ _ (0 : Fin 1) q

/-- Region 0 leaves the first hidden layer. -/
theorem x0_h1 : V4 m ρ c main_v25 = h1 m c := by
  refine (W4_arr m ρ c 5).trans ((Regions.final0 (V3 m ρ) c).trans ?_)
  unfold Regions.layer0 h1
  rw [e0_agg, e0_arg0, e0_arg3, e0_arg5, e0_bias]

theorem x0_arg1 : V4 m ρ c main_arg1 = (m ((c : Thread nD τ).loc main_arg1)) := (W4_of_ne m ρ c main_arg1 (by decide)).trans (e0_arg1 m ρ c)
theorem x0_arg2 : V4 m ρ c main_arg2 = (m ((c : Thread nD τ).loc main_arg2)) := (W4_of_ne m ρ c main_arg2 (by decide)).trans (e0_arg2 m ρ c)
theorem x0_arg6 : V4 m ρ c main_arg6 = (m ((c : Thread nD τ).loc main_arg6)) := (W4_of_ne m ρ c main_arg6 (by decide)).trans (e0_arg6 m ρ c)
theorem x0_arg7 : V4 m ρ c main_arg7 = (m ((c : Thread nD τ).loc main_arg7)) := (W4_of_ne m ρ c main_arg7 (by decide)).trans (e0_arg7 m ρ c)
theorem x0_arg8 : V4 m ρ c main_arg8 = (m ((c : Thread nD τ).loc main_arg8)) := (W4_of_ne m ρ c main_arg8 (by decide)).trans (e0_arg8 m ρ c)
theorem x0_arg9 : V4 m ρ c main_arg9 = (m ((c : Thread nD τ).loc main_arg9)) := (W4_of_ne m ρ c main_arg9 (by decide)).trans (e0_arg9 m ρ c)
theorem x0_arg10 : V4 m ρ c main_arg10 = (m ((c : Thread nD τ).loc main_arg10)) := (W4_of_ne m ρ c main_arg10 (by decide)).trans (e0_arg10 m ρ c)
theorem x0_arg11 : V4 m ρ c main_arg11 = (m ((c : Thread nD τ).loc main_arg11)) := (W4_of_ne m ρ c main_arg11 (by decide)).trans (e0_arg11 m ρ c)
theorem x0_nrm : V4 m ρ c main_v11 = nrmOf m c := (W4_of_ne m ρ c main_v11 (by decide)).trans (e0_nrm m ρ c)

/-! ## At the entry of region 1 -/

theorem e1_arg1 : V5 m ρ c main_arg1 = (m ((c : Thread nD τ).loc main_arg1)) := (Walk.mid1_keep_main_arg1 (W4 m ρ c)).trans (x0_arg1 m ρ c)
theorem e1_arg2 : V5 m ρ c main_arg2 = (m ((c : Thread nD τ).loc main_arg2)) := (Walk.mid1_keep_main_arg2 (W4 m ρ c)).trans (x0_arg2 m ρ c)
theorem e1_arg6 : V5 m ρ c main_arg6 = (m ((c : Thread nD τ).loc main_arg6)) := (Walk.mid1_keep_main_arg6 (W4 m ρ c)).trans (x0_arg6 m ρ c)
theorem e1_arg8 : V5 m ρ c main_arg8 = (m ((c : Thread nD τ).loc main_arg8)) := (Walk.mid1_keep_main_arg8 (W4 m ρ c)).trans (x0_arg8 m ρ c)
theorem e1_arg9 : V5 m ρ c main_arg9 = (m ((c : Thread nD τ).loc main_arg9)) := (Walk.mid1_keep_main_arg9 (W4 m ρ c)).trans (x0_arg9 m ρ c)
theorem e1_arg10 : V5 m ρ c main_arg10 = (m ((c : Thread nD τ).loc main_arg10)) := (Walk.mid1_keep_main_arg10 (W4 m ρ c)).trans (x0_arg10 m ρ c)
theorem e1_arg11 : V5 m ρ c main_arg11 = (m ((c : Thread nD τ).loc main_arg11)) := (Walk.mid1_keep_main_arg11 (W4 m ρ c)).trans (x0_arg11 m ρ c)
theorem e1_nrm : V5 m ρ c main_v11 = nrmOf m c := (Walk.mid1_keep_main_v11 (W4 m ρ c)).trans (x0_nrm m ρ c)
theorem e1_h1 : V5 m ρ c main_v25 = h1 m c := (Walk.mid1_keep_main_v25 (W4 m ρ c)).trans (x0_h1 m ρ c)
theorem e1_agg : V5 m ρ c main_v37 = aggOf m c (h1 m c) := by
  refine (Walk.mid1_agg (W4 m ρ c)).trans ?_
  unfold aggOf
  rw [show W4 m ρ c (Proc.devRef .tc main_v25) = h1 m c from x0_h1 m ρ c, show W4 m ρ c (Proc.devRef .tc main_arg1) = _ from x0_arg1 m ρ c,
    show W4 m ρ c (Proc.devRef .tc main_arg2) = _ from x0_arg2 m ρ c, show W4 m ρ c (Proc.devRef .tc main_v11) = _ from x0_nrm m ρ c]
theorem e1_bias : (fun q : Fin 128 => V5 m ρ c main_v38 (ix2 (0 : Fin 1) q)) = fun q => (m ((c : Thread nD τ).loc main_arg7)) (ix1 q) := by
  funext q
  rw [show V5 m ρ c main_v38 = shapeCast S1x128 (W4 m ρ c (Proc.devRef .tc main_arg7)) shapeCasts_S128_S1x128 from Walk.mid1_bias (W4 m ρ c),
    show W4 m ρ c (Proc.devRef .tc main_arg7) = _ from x0_arg7 m ρ c]
  exact shapeCast_a_1a_apply _ _ (0 : Fin 1) q

/-- Region 1 leaves the second hidden layer. -/
theorem x1_h2 : V6 m ρ c main_v39 = h2 m c := by
  refine (W6_arr m ρ c 5).trans ((Regions.final1 (V5 m ρ) c).trans ?_)
  unfold Regions.layer1 h2
  rw [e1_agg, e1_h1, e1_arg6, e1_arg8, e1_bias]

theorem x1_arg1 : V6 m ρ c main_arg1 = (m ((c : Thread nD τ).loc main_arg1)) := (W6_of_ne m ρ c main_arg1 (by decide)).trans (e1_arg1 m ρ c)
theorem x1_arg2 : V6 m ρ c main_arg2 = (m ((c : Thread nD τ).loc main_arg2)) := (W6_of_ne m ρ c main_arg2 (by decide)).trans (e1_arg2 m ρ c)
theorem x1_arg9 : V6 m ρ c main_arg9 = (m ((c : Thread nD τ).loc main_arg9)) := (W6_of_ne m ρ c main_arg9 (by decide)).trans (e1_arg9 m ρ c)
theorem x1_arg10 : V6 m ρ c main_arg10 = (m ((c : Thread nD τ).loc main_arg10)) := (W6_of_ne m ρ c main_arg10 (by decide)).trans (e1_arg10 m ρ c)
theorem x1_arg11 : V6 m ρ c main_arg11 = (m ((c : Thread nD τ).loc main_arg11)) := (W6_of_ne m ρ c main_arg11 (by decide)).trans (e1_arg11 m ρ c)
theorem x1_nrm : V6 m ρ c main_v11 = nrmOf m c := (W6_of_ne m ρ c main_v11 (by decide)).trans (e1_nrm m ρ c)

/-! ## At the entry of region 2 -/

theorem e2_arg9 : V7 m ρ c main_arg9 = (m ((c : Thread nD τ).loc main_arg9)) := (Walk.mid2_keep_main_arg9 (W6 m ρ c)).trans (x1_arg9 m ρ c)
theorem e2_arg11 : V7 m ρ c main_arg11 = (m ((c : Thread nD τ).loc main_arg11)) := (Walk.mid2_keep_main_arg11 (W6 m ρ c)).trans (x1_arg11 m ρ c)
theorem e2_h2 : V7 m ρ c main_v39 = h2 m c := (Walk.mid2_keep_main_v39 (W6 m ρ c)).trans (x1_h2 m ρ c)
theorem e2_agg : V7 m ρ c main_v51 = aggOf m c (h2 m c) := by
  refine (Walk.mid2_agg (W6 m ρ c)).trans ?_
  unfold aggOf
  rw [show W6 m ρ c (Proc.devRef .tc main_v39) = h2 m c from x1_h2 m ρ c, show W6 m ρ c (Proc.devRef .tc main_arg1) = _ from x1_arg1 m ρ c,
    show W6 m ρ c (Proc.devRef .tc main_arg2) = _ from x1_arg2 m ρ c, show W6 m ρ c (Proc.devRef .tc main_v11) = _ from x1_nrm m ρ c]
theorem e2_bias : (fun q : Fin 47 => V7 m ρ c main_v52 (ix2 (0 : Fin 1) q)) = fun q => (m ((c : Thread nD τ).loc main_arg10)) (ix1 q) := by
  funext q
  rw [show V7 m ρ c main_v52 = shapeCast S1x47 (W6 m ρ c (Proc.devRef .tc main_arg10)) shapeCasts_S47_S1x47 from Walk.mid2_bias (W6 m ρ c),
    show W6 m ρ c (Proc.devRef .tc main_arg10) = _ from x1_arg10 m ρ c]
  exact shapeCast_a_1a_apply _ _ (0 : Fin 1) q

/-- Region 2 leaves the output: THE RESULT ARRAY at the last boundary. -/
theorem result_eq : W8 m ρ c (Proc.devRef .tc main_v53) = outOf m c := by
  refine (W8_arr m ρ c 5).trans ((Regions.final2 (V7 m ρ) c).trans ?_)
  unfold Regions.layer2 outOf
  rw [e2_agg, e2_h2, e2_arg9, e2_arg11, e2_bias]

end Cert.KernelIdeal.Value

end
-- ==== Proof.RefLayers.lean ====
/-
  The reference, layer by layer: each of its three layers, read at an index, is the layer of `SageSpec` on the
  aggregation of the previous layer's output.

  The reference adds the bias between the two products; `SageSpec` shows that does not change the value. Its matrix
  products are read as sums over the shared axis by the lemmas about the reference's stages, and its outlined
  log_softmax is read in `RefSoftmax`.
-/
import proofs.«132377_j39711267619348_1_alg».proof.Proof.RefRead
import proofs.«132377_j39711267619348_1_alg».proof.Proof.SageSpec
import proofs.«132377_j39711267619348_1_alg».proof.Proof.RefSoftmax

noncomputable section

namespace Cert.ReferenceIdeal.Layers

open Cert.ReferenceIdeal Cert.ReferenceIdeal.Gen Cert.ReferenceIdeal.ReadP Idealize.ShloMosaic Idealize.ShloMosaic.ValueIdx Cert.Sage

/-! ## The stages' index maps at coordinates -/

theorem l_v24 (p : Fin 100000) (q : Fin 128) (k : Fin 128) : lidx_main_v24 (ix2 p q) k = ix2 p k := funext fun a => Fin.ext (by match a with | ⟨0, _⟩ => rfl | ⟨1, _⟩ => rfl)
theorem r_v24 (p : Fin 100000) (q : Fin 128) (k : Fin 128) : ridx_main_v24 (ix2 p q) k = ix2 k q := funext fun a => Fin.ext (by match a with | ⟨0, _⟩ => rfl | ⟨1, _⟩ => rfl)
theorem l_v28 (p : Fin 100000) (q : Fin 128) (k : Fin 128) : lidx_main_v28 (ix2 p q) k = ix2 p k := funext fun a => Fin.ext (by match a with | ⟨0, _⟩ => rfl | ⟨1, _⟩ => rfl)
theorem r_v28 (p : Fin 100000) (q : Fin 128) (k : Fin 128) : ridx_main_v28 (ix2 p q) k = ix2 k q := funext fun a => Fin.ext (by match a with | ⟨0, _⟩ => rfl | ⟨1, _⟩ => rfl)
theorem l_v43 (p : Fin 100000) (q : Fin 128) (k : Fin 128) : lidx_main_v43 (ix2 p q) k = ix2 p k := funext fun a => Fin.ext (by match a with | ⟨0, _⟩ => rfl | ⟨1, _⟩ => rfl)
theorem r_v43 (p : Fin 100000) (q : Fin 128) (k : Fin 128) : ridx_main_v43 (ix2 p q) k = ix2 k q := funext fun a => Fin.ext (by match a with | ⟨0, _⟩ => rfl | ⟨1, _⟩ => rfl)
theorem l_v47 (p : Fin 100000) (q : Fin 128) (k : Fin 128) : lidx_main_v47 (ix2 p q) k = ix2 p k := funext fun a => Fin.ext (by match a with | ⟨0, _⟩ => rfl | ⟨1, _⟩ => rfl)
theorem r_v47 (p : Fin 100000) (q : Fin 128) (k : Fin 128) : ridx_main_v47 (ix2 p q) k = ix2 k q := funext fun a => Fin.ext (by match a with | ⟨0, _⟩ => rfl | ⟨1, _⟩ => rfl)
theorem l_v62 (p : Fin 100000) (q : Fin 47) (k : Fin 128) : lidx_main_v62 (ix2 p q) k = ix2 p k := funext fun a => Fin.ext (by match a with | ⟨0, _⟩ => rfl | ⟨1, _⟩ => rfl)
theorem r_v62 (p : Fin 100000) (q : Fin 47) (k : Fin 128) : ridx_main_v62 (ix2 p q) k = ix2 k q := funext fun a => Fin.ext (by match a with | ⟨0, _⟩ => rfl | ⟨1, _⟩ => rfl)
theorem l_v66 (p : Fin 100000) (q : Fin 47) (k : Fin 128) : lidx_main_v66 (ix2 p q) k = ix2 p k := funext fun a => Fin.ext (by match a with | ⟨0, _⟩ => rfl | ⟨1, _⟩ => rfl)
theorem r_v66 (p : Fin 100000) (q : Fin 47) (k : Fin 128) : ridx_main_v66 (ix2 p q) k = ix2 k q := funext fun a => Fin.ext (by match a with | ⟨0, _⟩ => rfl | ⟨1, _⟩ => rfl)

theorem b_v26 (p : Fin 100000) (q : Fin 128) : idx_main_v25 (idx_main_v26 (ix2 p q)) = ix1 q := funext fun a => Fin.ext (by match a with | ⟨0, _⟩ => rfl)
theorem b_v45 (p : Fin 100000) (q : Fin 128) : idx_main_v44 (idx_main_v45 (ix2 p q)) = ix1 q := funext fun a => Fin.ext (by match a with | ⟨0, _⟩ => rfl)
theorem b_v64 (p : Fin 100000) (q : Fin 47) : idx_main_v63 (idx_main_v64 (ix2 p q)) = ix1 q := funext fun a => Fin.ext (by match a with | ⟨0, _⟩ => rfl)

variable (x0 : (⟨S100000x128, .f32⟩ : BufTy).Contents (Elt Ideal)) (x1 x2 : (⟨S1600000, .i32⟩ : BufTy).Contents (Elt Ideal))
  (x3 : (⟨S128x128, .f32⟩ : BufTy).Contents (Elt Ideal)) (x4 : (⟨S128, .f32⟩ : BufTy).Contents (Elt Ideal)) (x5 x6 : (⟨S128x128, .f32⟩ : BufTy).Contents (Elt Ideal))
  (x7 : (⟨S128, .f32⟩ : BufTy).Contents (Elt Ideal)) (x8 : (⟨S128x128, .f32⟩ : BufTy).Contents (Elt Ideal)) (x9 : (⟨S128x47, .f32⟩ : BufTy).Contents (Elt Ideal))
  (x10 : (⟨S47, .f32⟩ : BufTy).Contents (Elt Ideal)) (x11 : (⟨S128x47, .f32⟩ : BufTy).Contents (Elt Ideal))

/-! ## The two hidden layers

In each proof the arrays a layer reads — the aggregation and the previous layer's output — are made variables before
anything is compared: what they are does not matter here, and they are never opened. -/

theorem hidden_stage0 : val_main_v30 (F := Ideal) x0 x1 x2 x3 x4 x5
    = hidden (n := 100000) (d := 128) (e := 128) (val_main_v23 (F := Ideal) x0 x1 x2) x0 x3 x5 (fun q => x4 (ix1 q)) := by
  funext i
  obtain ⟨p, q, rfl⟩ : ∃ (p : Fin 100000) (q : Fin 128), i = ix2 p q := ⟨i 0, i 1, eq_ix2 i⟩
  rw [val_main_v30_apply, val_main_v29_apply, val_main_v27_apply, val_main_v24_apply, val_main_v28_apply, val_main_v26_apply,
    val_main_v25_apply, val_main_call1_v0_apply, val_main_call1_cst_apply]
  generalize val_main_v23 (F := Ideal) x0 x1 x2 = a
  simp only [l_v24, r_v24, l_v28, r_v28, b_v26]
  exact congrArg (max · zeroWord) (lin_bias_middle a x0 x3 x5 (fun q => x4 (ix1 q)) p q)

theorem hidden_stage1 : val_main_v49 (F := Ideal) x0 x1 x2 x3 x4 x5 x6 x7 x8
    = hidden (n := 100000) (d := 128) (e := 128) (val_main_v42 (F := Ideal) x0 x1 x2 x3 x4 x5) (val_main_v30 (F := Ideal) x0 x1 x2 x3 x4 x5) x6 x8 (fun q => x7 (ix1 q)) := by
  funext i
  obtain ⟨p, q, rfl⟩ : ∃ (p : Fin 100000) (q : Fin 128), i = ix2 p q := ⟨i 0, i 1, eq_ix2 i⟩
  rw [val_main_v49_apply, val_main_v48_apply, val_main_v46_apply, val_main_v43_apply, val_main_v47_apply, val_main_v45_apply,
    val_main_v44_apply, val_main_call2_v0_apply, val_main_call2_cst_apply]
  generalize val_main_v42 (F := Ideal) x0 x1 x2 x3 x4 x5 = a
  generalize val_main_v30 (F := Ideal) x0 x1 x2 x3 x4 x5 = h
  simp only [l_v43, r_v43, l_v47, r_v47, b_v45]
  exact congrArg (max · zeroWord) (lin_bias_middle a h x6 x8 (fun q => x7 (ix1 q)) p q)

/-! ## The output layer -/

/-- The logits. -/
theorem logits_stage (p : Fin 100000) (q : Fin 47) : val_main_v67 (F := Ideal) x0 x1 x2 x3 x4 x5 x6 x7 x8 x9 x10 x11 (ix2 p q)
    = lin (val_main_v61 (F := Ideal) x0 x1 x2 x3 x4 x5 x6 x7 x8) (val_main_v49 (F := Ideal) x0 x1 x2 x3 x4 x5 x6 x7 x8) x9 x11 (fun q => x10 (ix1 q)) p q := by
  rw [val_main_v67_apply, val_main_v65_apply, val_main_v62_apply, val_main_v66_apply, val_main_v64_apply, val_main_v63_apply]
  generalize val_main_v61 (F := Ideal) x0 x1 x2 x3 x4 x5 x6 x7 x8 = a
  generalize val_main_v49 (F := Ideal) x0 x1 x2 x3 x4 x5 x6 x7 x8 = h
  simp only [l_v62, r_v62, l_v66, r_v66, b_v64]
  exact lin_bias_middle a h x9 x11 (fun q => x10 (ix1 q)) p q

/-- The output layer: the reference's log_softmax of the logits is the row-wise log-softmax of the affine part. -/
theorem output_stage : val_main_v68 (F := Ideal) x0 x1 x2 x3 x4 x5 x6 x7 x8 x9 x10 x11
    = output (n := 100000) (d := 128) (e := 47) (val_main_v61 (F := Ideal) x0 x1 x2 x3 x4 x5 x6 x7 x8) (val_main_v49 (F := Ideal) x0 x1 x2 x3 x4 x5 x6 x7 x8) x9 x11 (fun q => x10 (ix1 q)) := by
  funext i
  obtain ⟨p, q, rfl⟩ : ∃ (p : Fin 100000) (q : Fin 47), i = ix2 p q := ⟨i 0, i 1, eq_ix2 i⟩
  rw [Softmax.output_read, Softmax.hostLogSoftmax_apply,
    show (fun p q => val_main_v67 (F := Ideal) x0 x1 x2 x3 x4 x5 x6 x7 x8 x9 x10 x11 (ix2 p q))
      = (fun p q => lin (val_main_v61 (F := Ideal) x0 x1 x2 x3 x4 x5 x6 x7 x8) (val_main_v49 (F := Ideal) x0 x1 x2 x3 x4 x5 x6 x7 x8) x9 x11 (fun q => x10 (ix1 q)) p q)
    from funext fun p => funext fun q => logits_stage x0 x1 x2 x3 x4 x5 x6 x7 x8 x9 x10 x11 p q]
  generalize val_main_v61 (F := Ideal) x0 x1 x2 x3 x4 x5 x6 x7 x8 = a
  generalize val_main_v49 (F := Ideal) x0 x1 x2 x3 x4 x5 x6 x7 x8 = h
  rfl

end Cert.ReferenceIdeal.Layers

end
-- ==== Proof.RefGraph.lean ====
/-
  The reference's graph side: the stages that compute the in-degree normaliser and the three aggregations are, as
  printed, `Graph.nrm` and `Graph.agg`. Stated for any float instance: the two sides are the same operations of the
  same operands, and nothing is evaluated.
-/
import proofs.«132377_j39711267619348_1_alg».proof.Proof.RefRead
import proofs.«132377_j39711267619348_1_alg».proof.Proof.Graph

noncomputable section

namespace Cert.ReferenceIdeal.Layers

open Cert.ReferenceIdeal Cert.ReferenceIdeal.ReadP Idealize.ShloMosaic

variable {F : FTy → Type} [FloatOps F]

variable (x0 : (⟨S100000x128, .f32⟩ : BufTy).Contents (Elt F)) (x1 x2 : (⟨S1600000, .i32⟩ : BufTy).Contents (Elt F))
  (x3 : (⟨S128x128, .f32⟩ : BufTy).Contents (Elt F)) (x4 : (⟨S128, .f32⟩ : BufTy).Contents (Elt F)) (x5 x6 : (⟨S128x128, .f32⟩ : BufTy).Contents (Elt F))
  (x7 : (⟨S128, .f32⟩ : BufTy).Contents (Elt F)) (x8 : (⟨S128x128, .f32⟩ : BufTy).Contents (Elt F))

theorem nrm_stage : val_main_v11 (F := F) x2 = Graph.nrm (F := F) x2 := by
  unfold val_main_v11 val_main_v10 val_main_v9 val_main_v8 val_main_v7 val_main_v6 val_main_v5 val_main_v4 val_main_v3 val_main_v2
    val_main_v1 val_main_v0 val_main_call0_v1 val_main_call0_v0 val_main_cst val_main_cst_0 val_main_cst_1 val_main_cst_2
    val_main_cst_3 val_main_cst_4 Graph.nrm Graph.deg
  rfl

theorem agg_stage0 : val_main_v23 (F := F) x0 x1 x2 = Graph.agg (F := F) x0 x1 x2 (val_main_v11 (F := F) x2) := by
  unfold val_main_v23 val_main_v22 val_main_v21 val_main_v20 val_main_v19 val_main_v18 val_main_v17 val_main_v16 val_main_v15
    val_main_v14 val_main_v13 val_main_v12 val_main_c val_main_c_5 val_main_cst_6 Graph.agg
  rfl

theorem agg_stage1 : val_main_v42 (F := F) x0 x1 x2 x3 x4 x5
    = Graph.agg (F := F) (val_main_v30 (F := F) x0 x1 x2 x3 x4 x5) x1 x2 (val_main_v11 (F := F) x2) := by
  unfold val_main_v42 val_main_v41 val_main_v40 val_main_v39 val_main_v38 val_main_v37 val_main_v36 val_main_v35 val_main_v34
    val_main_v33 val_main_v32 val_main_v31 val_main_c_7 val_main_c_8 val_main_cst_9 Graph.agg
  rfl

theorem agg_stage2 : val_main_v61 (F := F) x0 x1 x2 x3 x4 x5 x6 x7 x8
    = Graph.agg (F := F) (val_main_v49 (F := F) x0 x1 x2 x3 x4 x5 x6 x7 x8) x1 x2 (val_main_v11 (F := F) x2) := by
  unfold val_main_v61 val_main_v60 val_main_v59 val_main_v58 val_main_v57 val_main_v56 val_main_v55 val_main_v54 val_main_v53
    val_main_v52 val_main_v51 val_main_v50 val_main_c_10 val_main_c_11 val_main_cst_12 Graph.agg
  rfl

end Cert.ReferenceIdeal.Layers

end
-- ==== Proof.Bridge.lean ====
/-
  The two sides are one function of the arguments: the reference's last stage function, opened layer by layer
  (`RefLayers`, `RefGraph`), is the network the kernel's run ends at (`KernelValue`): three layers of `SageSpec`,
  each on the aggregation `Graph.agg` of the layer before, with the one normaliser `Graph.nrm`; the two programs'
  spellings of the aggregation and of the normaliser agree (`Graph`).
-/
import proofs.«132377_j39711267619348_1_alg».proof.Proof.KernelValue
import proofs.«132377_j39711267619348_1_alg».proof.Proof.RefLayers
import proofs.«132377_j39711267619348_1_alg».proof.Proof.RefGraph

noncomputable section

namespace Cert.Sage

open Idealize.ShloMosaic Idealize.ShloMosaic.TcCoe Idealize.SL.Sem

variable (m : (ℓ : Loc Cert.KernelIdeal.nD Cert.KernelIdeal.τ Cert.KernelIdeal.sig) → Buf (Elt Ideal) ℓ) (c : Dev Cert.KernelIdeal.nD)

/-- The reference's result term of the kernel's argument arrays is the kernel's result. -/
theorem reference_eq_kernel :
    Cert.ReferenceIdeal.ReadP.val_main_v68 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11))
      = Cert.KernelIdeal.Value.outOf m c := by
  rw [Cert.ReferenceIdeal.Layers.output_stage, Cert.ReferenceIdeal.Layers.agg_stage2, Cert.ReferenceIdeal.Layers.hidden_stage1,
    Cert.ReferenceIdeal.Layers.agg_stage1, Cert.ReferenceIdeal.Layers.hidden_stage0, Cert.ReferenceIdeal.Layers.agg_stage0,
    Cert.ReferenceIdeal.Layers.nrm_stage]
  unfold Cert.KernelIdeal.Value.outOf Cert.KernelIdeal.Value.h2 Cert.KernelIdeal.Value.h1 Cert.KernelIdeal.Value.aggOf
    Cert.KernelIdeal.Value.nrmOf
  simp only [Cert.Sage.agg_eq, Cert.Sage.nrm_eq]

end Cert.Sage

end
-- ==== Proof.lean ====
/-
  A three-layer GraphSAGE network on a graph of 100000 nodes and 1600000 edges — mean aggregation over incoming edges,
  two linear maps and a bias per layer, relu after the first two layers, log-softmax after the third — computed twice:
  by a program that fuses each layer's dense part (two matrix products in bf16 with f32 accumulation, bias, relu or
  log-softmax) into one pipelined kernel region of 25 steps of 4000 rows, around host lines that aggregate; and by a plain
  reference. Over the extended reals the two end with the same result array.

  Why. A change of float format is the identity there, a matrix product into a zero accumulator and the host's product
  are the same sum, and a lane reduction and the host's reduction are the same fold or sum; the kernel adds the bias
  after the second product where the reference adds it between the two (addition is commutative and associative on the
  extended reals, with no finiteness needed), and the reference's log-softmax takes one more, idle, maximum against −∞.
  The graph side — in-degree, normaliser, gather, accumulate, scale — is the same host operations of the same operands
  in both programs, and is never opened. So the precondition (finite inputs) is not used.

  How. `SageSpec` states a layer at a node; `KernelBody` reads each kernel step's stored block as that layer on the
  block's rows; `KernelRegions` turns the 25 blocks of a region into the layer on the whole array; `KernelWalk` reads the
  host lines between the regions and `KernelRun` keeps the result array in the run's post; `KernelValue` walks the eight
  segments. On the reference's side `RefStages` / `RefValue` read its run in five stages, `RefLayers`, `RefSoftmax` and
  `RefGraph` open its stage functions, and `Bridge` joins the two sides. The three frames are the generated frame
  certificates and the reference's run with its result dropped; nothing was idealized by rewriting, so `preserves` is trivial.
-/
import proofs.«132377_j39711267619348_1_alg».proof.Defs
import proofs.«132377_j39711267619348_1_alg».proof.Proof.Gen.Kernel
import proofs.«132377_j39711267619348_1_alg».proof.Proof.Gen.Kernel.Skeleton
import proofs.«132377_j39711267619348_1_alg».proof.Proof.Gen.Kernel.Launch
import proofs.«132377_j39711267619348_1_alg».proof.Proof.Gen.Kernel.Points
import proofs.«132377_j39711267619348_1_alg».proof.Proof.Gen.Kernel.Frame
import proofs.«132377_j39711267619348_1_alg».proof.Proof.Gen.KernelIdeal
import proofs.«132377_j39711267619348_1_alg».proof.Proof.Gen.KernelIdeal.Skeleton
import proofs.«132377_j39711267619348_1_alg».proof.Proof.Gen.KernelIdeal.Launch
import proofs.«132377_j39711267619348_1_alg».proof.Proof.Gen.KernelIdeal.Points
import proofs.«132377_j39711267619348_1_alg».proof.Proof.Gen.KernelIdeal.Frame
import proofs.«132377_j39711267619348_1_alg».proof.Proof.Gen.ReferenceIdeal
import proofs.«132377_j39711267619348_1_alg».proof.Proof.Gen.Pre_finite_inputs
import proofs.«132377_j39711267619348_1_alg».proof.Proof.KernelRun
import proofs.«132377_j39711267619348_1_alg».proof.Proof.RefValue
import proofs.«132377_j39711267619348_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Stages.run (F := Ideal) m ρ)

theorem preserves : Cert.preserves_Kernel_KernelIdeal := trivial

/-- Both idealized programs end with the network's output of the (shared) arguments. -/
theorem algebraic : Cert.algebraic_KernelIdeal_ReferenceIdeal := by
  intro m ρ m' ρ' _ hagree
  refine ⟨fun c => Cert.KernelIdeal.Value.outOf m c, ?_, ?_⟩
  · exact (θ_run Cert.KernelIdeal.defs _ _).mono
      (fun r h c => ⟨(h c).1.trans (Cert.KernelIdeal.Value.result_eq m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Stages.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    exact Cert.Sage.reference_eq_kernel m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
